-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x64x300 : Shape := ⟨3, ![256, 64, 300]⟩
abbrev S256x256x300 : Shape := ⟨3, ![256, 256, 300]⟩
abbrev S1500x512 : Shape := ⟨2, ![1500, 512]⟩
abbrev S512 : Shape := ⟨1, ![512]⟩
abbrev S_ : Shape := ⟨0, ![]⟩

class Facts : Prop where
  bcast_S_S256x64x300 : S_.BroadcastsInDim S256x64x300 (![] : Fin 0 → Fin S256x64x300.rank)
  reducesTo_S256x64x300_S_d0_1_2 : S256x64x300.ReducesTo [0, 1, 2] S_
  h_S_ : 0 < S_.numel
  bcast_S_S256x256x300 : S_.BroadcastsInDim S256x256x300 (![] : Fin 0 → Fin S256x256x300.rank)
  reducesTo_S256x256x300_S_d0_1_2 : S256x256x300.ReducesTo [0, 1, 2] S_
  bcast_S_S1500x512 : S_.BroadcastsInDim S1500x512 (![] : Fin 0 → Fin S1500x512.rank)
  reducesTo_S1500x512_S_d0_1 : S1500x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S256x64x300 .f32) (main_arg1 : FVec F S256x256x300 .f32) (main_arg2 : FVec F S1500x512 .f32) (main_arg3 : FVec F S512 .f32) : IVec S_ 1 :=
  let main_v0 : FVec F S256x64x300 .f32 := Host.absf main_arg0
  let main_cst : FVec F S_ .f32 := constant S_ .f32 0x7F800000#32
  let main_v1 : FVec F S256x64x300 .f32 := broadcastInDim S256x64x300 ![] bcast_S_S256x64x300 main_cst
  let main_v2 : IVec S256x64x300 1 := cmpf .olt main_v0 main_v1
  let main_c : IVec S_ 1 := constantI S_ 1 1#1
  let main_v3 : IVec S_ 1 := (fun x v => Host.reduce IntOp.andi x v reducesTo_S256x64x300_S_d0_1_2 h_S_) main_v2 main_c
  let main_v4 : FVec F S256x256x300 .f32 := Host.absf main_arg1
  let main_cst_0 : FVec F S_ .f32 := constant S_ .f32 0x7F800000#32
  let main_v5 : FVec F S256x256x300 .f32 := broadcastInDim S256x256x300 ![] bcast_S_S256x256x300 main_cst_0
  let main_v6 : IVec S256x256x300 1 := cmpf .olt main_v4 main_v5
  let main_c_1 : IVec S_ 1 := constantI S_ 1 1#1
  let main_v7 : IVec S_ 1 := (fun x v => Host.reduce IntOp.andi x v reducesTo_S256x256x300_S_d0_1_2 h_S_) main_v6 main_c_1
  let main_v8 : IVec S_ 1 := andi main_v3 main_v7
  let main_v9 : FVec F S1500x512 .f32 := Host.absf main_arg2
  let main_cst_2 : FVec F S_ .f32 := constant S_ .f32 0x7F800000#32
  let main_v10 : FVec F S1500x512 .f32 := broadcastInDim S1500x512 ![] bcast_S_S1500x512 main_cst_2
  let main_v11 : IVec S1500x512 1 := cmpf .olt main_v9 main_v10
  let main_c_3 : IVec S_ 1 := constantI S_ 1 1#1
  let main_v12 : IVec S_ 1 := (fun x v => Host.reduce IntOp.andi x v reducesTo_S1500x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S256x64x300 : Shape := ⟨3, ![256, 64, 300]⟩
abbrev S256x256x300 : Shape := ⟨3, ![256, 256, 300]⟩
abbrev S1500x512 : Shape := ⟨2, ![1500, 512]⟩
abbrev S512 : Shape := ⟨1, ![512]⟩
abbrev S5x300x512 : Shape := ⟨3, ![5, 300, 512]⟩
abbrev S1x512 : Shape := ⟨2, ![1, 512]⟩
abbrev S256x64x512 : Shape := ⟨3, ![256, 64, 512]⟩
abbrev S16x64x300 : Shape := ⟨3, ![16, 64, 300]⟩
abbrev S16x64x512 : Shape := ⟨3, ![16, 64, 512]⟩
abbrev S16x68x300 : Shape := ⟨3, ![16, 68, 300]⟩
abbrev S16x2x300 : Shape := ⟨3, ![16, 2, 300]⟩
abbrev S1024x300 : Shape := ⟨2, ![1024, 300]⟩
abbrev S1x300x512 : Shape := ⟨3, ![1, 300, 512]⟩
abbrev S300x512 : Shape := ⟨2, ![300, 512]⟩
abbrev S1024x512 : Shape := ⟨2, ![1024, 512]⟩
abbrev S1x1x512 : Shape := ⟨3, ![1, 1, 512]⟩
abbrev S256x512x64 : Shape := ⟨3, ![256, 512, 64]⟩
abbrev S256x512x256 : Shape := ⟨3, ![256, 512, 256]⟩
abbrev S8x256x300 : Shape := ⟨3, ![8, 256, 300]⟩
abbrev S8x512x256 : Shape := ⟨3, ![8, 512, 256]⟩
abbrev S8x260x300 : Shape := ⟨3, ![8, 260, 300]⟩
abbrev S8x256x512 : Shape := ⟨3, ![8, 256, 512]⟩
abbrev S8x2x300 : Shape := ⟨3, ![8, 2, 300]⟩
abbrev S2048x300 : Shape := ⟨2, ![2048, 300]⟩
abbrev S2048x512 : Shape := ⟨2, ![2048, 512]⟩

abbrev nBuf : Space → Nat
  | .hbm => 10
  | .vmem => 16
  | .smem => 0
  | _ => 0

abbrev bufTy : (tb : Table) → Fin (tcTables nBuf tb) → BufTy
  | .hbm, ⟨0, _⟩ => ⟨S256x64x300, .f32⟩
  | .hbm, ⟨1, _⟩ => ⟨S256x256x300, .f32⟩
  | .hbm, ⟨2, _⟩ => ⟨S1500x512, .f32⟩
  | .hbm, ⟨3, _⟩ => ⟨S512, .f32⟩
  | .hbm, ⟨4, _⟩ => ⟨S5x300x512, .f32⟩
  | .hbm, ⟨5, _⟩ => ⟨S5x300x512, .bf16⟩
  | .hbm, ⟨6, _⟩ => ⟨S1x512, .f32⟩
  | .hbm, ⟨7, _⟩ => ⟨S256x64x512, .f32⟩
  | .hbm, ⟨8, _⟩ => ⟨S256x512x64, .f32⟩
  | .hbm, ⟨9, _⟩ => ⟨S256x512x256, .f32⟩
  | .local _ .vmem, ⟨0, _⟩ => ⟨S16x64x300, .f32⟩
  | .local _ .vmem, ⟨1, _⟩ => ⟨S16x64x300, .f32⟩
  | .local _ .vmem, ⟨2, _⟩ => ⟨S5x300x512, .bf16⟩
  | .local _ .vmem, ⟨3, _⟩ => ⟨S1x512, .f32⟩
  | .local _ .vmem, ⟨4, _⟩ => ⟨S16x64x512, .f32⟩
  | .local _ .vmem, ⟨5, _⟩ => ⟨S16x64x512, .f32⟩
  | .local _ .vmem, ⟨6, _⟩ => ⟨S16x68x300, .bf16⟩
  | .local _ .vmem, ⟨7, _⟩ => ⟨S16x64x512, .f32⟩
  | .local _ .vmem, ⟨8, _⟩ => ⟨S8x256x300, .f32⟩
  | .local _ .vmem, ⟨9, _⟩ => ⟨S8x256x300, .f32⟩
  | .local _ .vmem, ⟨10, _⟩ => ⟨S5x300x512, .bf16⟩
  | .local _ .vmem, ⟨11, _⟩ => ⟨S1x512, .f32⟩
  | .local _ .vmem, ⟨12, _⟩ => ⟨S8x512x256, .f32⟩
  | .local _ .vmem, ⟨13, _⟩ => ⟨S8x512x256, .f32⟩
  | .local _ .vmem, ⟨14, _⟩ => ⟨S8x260x300, .bf16⟩
  | .local _ .vmem, ⟨15, _⟩ => ⟨S8x256x512, .f32⟩
  | _, _ => ⟨S256x64x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x64x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x300x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x256x300 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S5x300x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8x512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S1500x512_S5x300x512 : S1500x512.ShapeCasts S5x300x512
  bitsLt_bf16_f32 : FTy.bits .bf16 < FTy.bits .f32
  shapeCasts_S512_S1x512 : S512.ShapeCasts S1x512
  inb_S16x68x300_S16x2x300_0_0_0 : ∀ a, (![0, 0, 0] : Fin 3 → Nat) a + S16x2x300.size a ≤ S16x68x300.size a
  h_S16x2x300 : 0 < S16x2x300.numel
  shapeCasts_S16x2x300_S16x2x300 : S16x2x300.ShapeCasts S16x2x300
  packedbf16_S16x68x300_S16x2x300_0_0_0 : (Rect.unit (s := S16x68x300) ![0, 0, 0] S16x2x300.size inb_S16x68x300_S16x2x300_0_0_0).PackedRows (EltTy.packing .bf16)
  inb_S16x68x300_S16x2x300_0_66_0 : ∀ a, (![0, 66, 0] : Fin 3 → Nat) a + S16x2x300.size a ≤ S16x68x300.size a
  packedbf16_S16x68x300_S16x2x300_0_66_0 : (Rect.unit (s := S16x68x300) ![0, 66, 0] S16x2x300.size inb_S16x68x300_S16x2x300_0_66_0).PackedRows (EltTy.packing .bf16)
  inb_S16x64x300_S16x64x300_0_0_0 : ∀ a, (![0, 0, 0] : Fin 3 → Nat) a + S16x64x300.size a ≤ S16x64x300.size a
  h_S16x64x300 : 0 < S16x64x300.numel
  inb_S16x68x300_S16x64x300_0_2_0 : ∀ a, (![0, 2, 0] : Fin 3 → Nat) a + S16x64x300.size a ≤ S16x68x300.size a
  shapeCasts_S16x64x300_S16x64x300 : S16x64x300.ShapeCasts S16x64x300
  packedbf16_S16x68x300_S16x64x300_0_2_0 : (Rect.unit (s := S16x68x300) ![0, 2, 0] S16x64x300.size inb_S16x68x300_S16x64x300_0_2_0).PackedRows (EltTy.packing .bf16)
  inb_S16x64x512_S16x64x512_0_0_0 : ∀ a, (![0, 0, 0] : Fin 3 → Nat) a + S16x64x512.size a ≤ S16x64x512.size a
  h_S16x64x512 : 0 < S16x64x512.numel
  shapeCasts_S16x64x512_S16x64x512 : S16x64x512.ShapeCasts S16x64x512
  inb_S16x68x300_S16x64x300_0_0_0 : ∀ a, (![0, 0, 0] : Fin 3 → Nat) a + S16x64x300.size a ≤ S16x68x300.size a
  shapeCasts_S16x64x300_S1024x300 : S16x64x300.ShapeCasts S1024x300
  inb_S5x300x512_S1x300x512_0_0_0 : ∀ a, (![0, 0, 0] : Fin 3 → Nat) a + S1x300x512.size a ≤ S5x300x512.size a
  h_S1x300x512 : 0 < S1x300x512.numel
  shapeCasts_S1x300x512_S300x512 : S1x300x512.ShapeCasts S300x512
  shapeCasts_S1024x512_S16x64x512 : S1024x512.ShapeCasts S16x64x512
  inb_S16x68x300_S16x64x300_0_1_0 : ∀ a, (![0, 1, 0] : Fin 3 → Nat) a + S16x64x300.size a ≤ S16x68x300.size a
  inb_S5x300x512_S1x300x512_1_0_0 : ∀ a, (![1, 0, 0] : Fin 3 → Nat) a + S1x300x512.size a ≤ S5x300x512.size a
  inb_S5x300x512_S1x300x512_2_0_0 : ∀ a, (![2, 0, 0] : Fin 3 → Nat) a + S1x300x512.size a ≤ S5x300x512.size a
  inb_S16x68x300_S16x64x300_0_3_0 : ∀ a, (![0, 3, 0] : Fin 3 → Nat) a + S16x64x300.size a ≤ S16x68x300.size a
  inb_S5x300x512_S1x300x512_3_0_0 : ∀ a, (![3, 0, 0] : Fin 3 → Nat) a + S1x300x512.size a ≤ S5x300x512.size a
  inb_S16x68x300_S16x64x300_0_4_0 : ∀ a, (![0, 4, 0] : Fin 3 → Nat) a + S16x64x300.size a ≤ S16x68x300.size a
  inb_S5x300x512_S1x300x512_4_0_0 : ∀ a, (![4, 0, 0] : Fin 3 → Nat) a + S1x300x512.size a ≤ S5x300x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  broadcasts_S1x1x512_S16x64x512 : S1x1x512.Broadcasts S16x64x512
  transposes_S256x64x512_S256x512x64_0_2_1 : S256x64x512.Transposes [0, 2, 1] S256x512x64
  inb_S8x260x300_S8x2x300_0_0_0 : ∀ a, (![0, 0, 0] : Fin 3 → Nat) a + S8x2x300.size a ≤ S8x260x300.size a
  h_S8x2x300 : 0 < S8x2x300.numel
  shapeCasts_S8x2x300_S8x2x300 : S8x2x300.ShapeCasts S8x2x300
  packedbf16_S8x260x300_S8x2x300_0_0_0 : (Rect.unit (s := S8x260x300) ![0, 0, 0] S8x2x300.size inb_S8x260x300_S8x2x300_0_0_0).PackedRows (EltTy.packing .bf16)
  inb_S8x260x300_S8x2x300_0_258_0 : ∀ a, (![0, 258, 0] : Fin 3 → Nat) a + S8x2x300.size a ≤ S8x260x300.size a
  packedbf16_S8x260x300_S8x2x300_0_258_0 : (Rect.unit (s := S8x260x300) ![0, 258, 0] S8x2x300.size inb_S8x260x300_S8x2x300_0_258_0).PackedRows (EltTy.packing .bf16)
  inb_S8x256x300_S8x256x300_0_0_0 : ∀ a, (![0, 0, 0] : Fin 3 → Nat) a + S8x256x300.size a ≤ S8x256x300.size a
  h_S8x256x300 : 0 < S8x256x300.numel
  inb_S8x260x300_S8x256x300_0_2_0 : ∀ a, (![0, 2, 0] : Fin 3 → Nat) a + S8x256x300.size a ≤ S8x260x300.size a
  shapeCasts_S8x256x300_S8x256x300 : S8x256x300.ShapeCasts S8x256x300
  packedbf16_S8x260x300_S8x256x300_0_2_0 : (Rect.unit (s := S8x260x300) ![0, 2, 0] S8x256x300.size inb_S8x260x300_S8x256x300_0_2_0).PackedRows (EltTy.packing .bf16)
  inb_S8x256x512_S8x256x512_0_0_0 : ∀ a, (![0, 0, 0] : Fin 3 → Nat) a + S8x256x512.size a ≤ S8x256x512.size a
  h_S8x256x512 : 0 < S8x256x512.numel
  shapeCasts_S8x256x512_S8x256x512 : S8x256x512.ShapeCasts S8x256x512
  inb_S8x260x300_S8x256x300_0_0_0 : ∀ a, (![0, 0, 0] : Fin 3 → Nat) a + S8x256x300.size a ≤ S8x260x300.size a
  shapeCasts_S8x256x300_S2048x300 : S8x256x300.ShapeCasts S2048x300
  shapeCasts_S2048x512_S8x256x512 : S2048x512.ShapeCasts S8x256x512
  inb_S8x260x300_S8x256x300_0_1_0 : ∀ a, (![0, 1, 0] : Fin 3 → Nat) a + S8x256x300.size a ≤ S8x260x300.size a
  inb_S8x260x300_S8x256x300_0_3_0 : ∀ a, (![0, 3, 0] : Fin 3 → Nat) a + S8x256x300.size a ≤ S8x260x300.size a
  inb_S8x260x300_S8x256x300_0_4_0 : ∀ a, (![0, 4, 0] : Fin 3 → Nat) a + S8x256x300.size a ≤ S8x260x300.size a
  broadcasts_S1x1x512_S8x256x512 : S1x1x512.Broadcasts S8x256x512
  transposes_S8x256x512_p0_2_1_S8x512x256 : S8x256x512.Transposes [0, 2, 1] S8x512x256
  inb_S8x512x256_S8x512x256_0_0_0 : ∀ a, (![0, 0, 0] : Fin 3 → Nat) a + S8x512x256.size a ≤ S8x512x256.size a
  h_S8x512x256 : 0 < S8x512x256.numel
  dot_S1024x300_S300x512_S1024x512_1_0_0_1_n_n_wf : DotDims.WF S1024x300 S300x512 S1024x512 [1] [0] [0] [1] [] []
  dot_S2048x300_S300x512_S2048x512_1_0_0_1_n_n_wf : DotDims.WF S2048x300 S300x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x64x300.size a ≤ S256x64x300.size a
  hwx0_0 : ∀ i : grid0.Coords, EltTy.bits .f32 = 32 ∨ (Rect.block (s := S256x64x300) S16x64x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x300x512.size a ≤ S5x300x512.size a
  hwx0_1 : ∀ i : grid0.Coords, EltTy.bits .bf16 = 32 ∨ (Rect.block (s := S5x300x512) S5x300x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x64x512.size a ≤ S256x64x512.size a
  hwx0_3 : ∀ i : grid0.Coords, EltTy.bits .f32 = 32 ∨ (Rect.block (s := S256x64x512) S16x64x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x300.size a ≤ S256x256x300.size a
  hwx1_0 : ∀ i : grid1.Coords, EltTy.bits .f32 = 32 ∨ (Rect.block (s := S256x256x300) S8x256x300.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5x300x512.size a ≤ S5x300x512.size a
  hwx1_1 : ∀ i : grid1.Coords, EltTy.bits .bf16 = 32 ∨ (Rect.block (s := S5x300x512) S5x300x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x512x256.size a ≤ S256x512x256.size a
  hwx1_3 : ∀ i : grid1.Coords, EltTy.bits .f32 = 32 ∨ (Rect.block (s := S256x512x256) S8x512x256.size (cc1_transform_3 i) (hinb1_3 i)).WholeWords (EltTy.packing .f32)

variable [Facts₀]

def dot_S1024x300_S300x512_S1024x512_1_0_0_1_n_n : DotDims S1024x300 S300x512 S1024x512 where
  lhsContracting := [1]
  rhsContracting := [0]
  lhsNonContracting := [0]
  rhsNonContracting := [1]
  lhsBatch := []
  rhsBatch := []
  wf := dot_S1024x300_S300x512_S1024x512_1_0_0_1_n_n_wf
def dot_S2048x300_S300x512_S2048x512_1_0_0_1_n_n : DotDims S2048x300 S300x512 S2048x512 where
  lhsContracting := [1]
  rhsContracting := [0]
  lhsNonContracting := [0]
  rhsNonContracting := [1]
  lhsBatch := []
  rhsBatch := []
  wf := dot_S2048x300_S300x512_S2048x512_1_0_0_1_n_n_wf

abbrev win0_0 : Pipeline.Window sig grid0 :=
  Pipeline.Window.ofSpec (Memref.whole main_arg0) S16x64x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5x300x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S8x256x300.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5x300x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S8x512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S256x64x300 : Shape := ⟨3, ![256, 64, 300]⟩
abbrev S256x256x300 : Shape := ⟨3, ![256, 256, 300]⟩
abbrev S1500x512 : Shape := ⟨2, ![1500, 512]⟩
abbrev S512 : Shape := ⟨1, ![512]⟩
abbrev S_ : Shape := ⟨0, ![]⟩
abbrev S256x68x300 : Shape := ⟨3, ![256, 68, 300]⟩
abbrev S256x64x1500 : Shape := ⟨3, ![256, 64, 1500]⟩
abbrev S512x256x64 : Shape := ⟨3, ![512, 256, 64]⟩
abbrev S256x512x64 : Shape := ⟨3, ![256, 512, 64]⟩
abbrev S1x512x1 : Shape := ⟨3, ![1, 512, 1]⟩
abbrev S256x260x300 : Shape := ⟨3, ![256, 260, 300]⟩
abbrev S256x256x1500 : Shape := ⟨3, ![256, 256, 1500]⟩
abbrev S512x256x256 : Shape := ⟨3, ![512, 256, 256]⟩
abbrev S256x512x256 : Shape := ⟨3, ![256, 512, 256]⟩

abbrev nBuf : Space → Nat
  | .hbm => 32
  | .vmem => 0
  | .smem => 0
  | _ => 0

abbrev bufTy : (tb : Table) → Fin (tcTables nBuf tb) → BufTy
  | .hbm, ⟨0, _⟩ => ⟨S256x64x300, .f32⟩
  | .hbm, ⟨1, _⟩ => ⟨S256x256x300, .f32⟩
  | .hbm, ⟨2, _⟩ => ⟨S1500x512, .f32⟩
  | .hbm, ⟨3, _⟩ => ⟨S512, .f32⟩
  | .hbm, ⟨4, _⟩ => ⟨S_, .i32⟩
  | .hbm, ⟨5, _⟩ => ⟨S_, .f32⟩
  | .hbm, ⟨6, _⟩ => ⟨S256x68x300, .f32⟩
  | .hbm, ⟨7, _⟩ => ⟨S256x64x300, .f32⟩
  | .hbm, ⟨8, _⟩ => ⟨S256x64x300, .f32⟩
  | .hbm, ⟨9, _⟩ => ⟨S256x64x300, .f32⟩
  | .hbm, ⟨10, _⟩ => ⟨S256x64x300, .f32⟩
  | .hbm, ⟨11, _⟩ => ⟨S256x64x300, .f32⟩
  | .hbm, ⟨12, _⟩ => ⟨S256x64x1500, .f32⟩
  | .hbm, ⟨13, _⟩ => ⟨S512x256x64, .f32⟩
  | .hbm, ⟨14, _⟩ => ⟨S256x512x64, .f32⟩
  | .hbm, ⟨15, _⟩ => ⟨S1x512x1, .f32⟩
  | .hbm, ⟨16, _⟩ => ⟨S256x512x64, .f32⟩
  | .hbm, ⟨17, _⟩ => ⟨S256x512x64, .f32⟩
  | .hbm, ⟨18, _⟩ => ⟨S_, .i32⟩
  | .hbm, ⟨19, _⟩ => ⟨S_, .f32⟩
  | .hbm, ⟨20, _⟩ => ⟨S256x260x300, .f32⟩
  | .hbm, ⟨21, _⟩ => ⟨S256x256x300, .f32⟩
  | .hbm, ⟨22, _⟩ => ⟨S256x256x300, .f32⟩
  | .hbm, ⟨23, _⟩ => ⟨S256x256x300, .f32⟩
  | .hbm, ⟨24, _⟩ => ⟨S256x256x300, .f32⟩
  | .hbm, ⟨25, _⟩ => ⟨S256x256x300, .f32⟩
  | .hbm, ⟨26, _⟩ => ⟨S256x256x1500, .f32⟩
  | .hbm, ⟨27, _⟩ => ⟨S512x256x256, .f32⟩
  | .hbm, ⟨28, _⟩ => ⟨S256x512x256, .f32⟩
  | .hbm, ⟨29, _⟩ => ⟨S1x512x1, .f32⟩
  | .hbm, ⟨30, _⟩ => ⟨S256x512x256, .f32⟩
  | .hbm, ⟨31, _⟩ => ⟨S256x512x256, .f32⟩
  | _, _ => ⟨S256x64x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  pads_S256x64x300_S256x68x300_000_220_000 : S256x64x300.Pads (![0, 2, 0] : Fin 3 → Nat) ![0, 2, 0] ![0, 0, 0] S256x68x300
  h_S_ : 0 < S_.numel
  slices_S256x68x300_S256x64x300_0_0_0 : S256x68x300.Slices ![0, 0, 0] S256x64x300
  slices_S256x68x300_S256x64x300_0_1_0 : S256x68x300.Slices ![0, 1, 0] S256x64x300
  slices_S256x68x300_S256x64x300_0_2_0 : S256x68x300.Slices ![0, 2, 0] S256x64x300
  slices_S256x68x300_S256x64x300_0_3_0 : S256x68x300.Slices ![0, 3, 0] S256x64x300
  slices_S256x68x300_S256x64x300_0_4_0 : S256x68x300.Slices ![0, 4, 0] S256x64x300
  concatenates_S256x64x300_S256x64x300_S256x64x300_S256x64x300_S256x64x300_S256x64x1500_d2 : Shape.Concatenates [S256x64x300, S256x64x300, S256x64x300, S256x64x300, S256x64x300] S256x64x1500 2
  transposes_S512x256x64_S256x512x64_1_0_2 : S512x256x64.Transposes [1, 0, 2] S256x512x64
  bcast_S512_S1x512x1_1 : S512.BroadcastsInDim S1x512x1 (![1] : Fin 1 → Fin S1x512x1.rank)
  bcast_S1x512x1_S256x512x64_0_1_2 : S1x512x1.BroadcastsInDim S256x512x64 (![0, 1, 2] : Fin 3 → Fin S256x512x64.rank)
  pads_S256x256x300_S256x260x300_000_220_000 : S256x256x300.Pads (![0, 2, 0] : Fin 3 → Nat) ![0, 2, 0] ![0, 0, 0] S256x260x300
  slices_S256x260x300_S256x256x300_0_0_0 : S256x260x300.Slices ![0, 0, 0] S256x256x300
  slices_S256x260x300_S256x256x300_0_1_0 : S256x260x300.Slices ![0, 1, 0] S256x256x300
  slices_S256x260x300_S256x256x300_0_2_0 : S256x260x300.Slices ![0, 2, 0] S256x256x300
  slices_S256x260x300_S256x256x300_0_3_0 : S256x260x300.Slices ![0, 3, 0] S256x256x300
  slices_S256x260x300_S256x256x300_0_4_0 : S256x260x300.Slices ![0, 4, 0] S256x256x300
  concatenates_S256x256x300_S256x256x300_S256x256x300_S256x256x300_S256x256x300_S256x256x1500_d2 : Shape.Concatenates [S256x256x300, S256x256x300, S256x256x300, S256x256x300, S256x256x300] S256x256x1500 2
  transposes_S512x256x256_S256x512x256_1_0_2 : S512x256x256.Transposes [1, 0, 2] S256x512x256
  bcast_S1x512x1_S256x512x256_0_1_2 : S1x512x1.BroadcastsInDim S256x512x256 (![0, 1, 2] : Fin 3 → Fin S256x512x256.rank)
  dot_S1500x512_S256x64x1500_S512x256x64_0_2_1_01_n_n_wf : DotDims.WF S1500x512 S256x64x1500 S512x256x64 [0] [2] [1] [0, 1] [] []
  dot_S1500x512_S256x256x1500_S512x256x256_0_2_1_01_n_n_wf : DotDims.WF S1500x512 S256x256x1500 S512x256x256 [0] [2] [1] [0, 1] [] []

variable [Facts₀]

def dot_S1500x512_S256x64x1500_S512x256x64_0_2_1_01_n_n : DotDims S1500x512 S256x64x1500 S512x256x64 where
  lhsContracting := [0]
  rhsContracting := [2]
  lhsNonContracting := [1]
  rhsNonContracting := [0, 1]
  lhsBatch := []
  rhsBatch := []
  wf := dot_S1500x512_S256x64x1500_S512x256x64_0_2_1_01_n_n_wf
def dot_S1500x512_S256x256x1500_S512x256x256_0_2_1_01_n_n : DotDims S1500x512 S256x256x1500 S512x256x256 where
  lhsContracting := [0]
  rhsContracting := [2]
  lhsNonContracting := [1]
  rhsNonContracting := [0, 1]
  lhsBatch := []
  rhsBatch := []
  wf := dot_S1500x512_S256x256x1500_S512x256x256_0_2_1_01_n_n_wf

class Facts : Prop extends Facts₀ where

variable [Facts]
-- ==== Proof.ConvSpec.lean ====
/-
  The context-window convolution, stated once over the extended reals.

  A batch of token sequences `x[b, l, e]` (300 features per token) is padded with two zero rows before and after each
  sequence; token `l`'s context vector is the five padded rows `l, l+1, …, l+4` laid end to end (1500 numbers: position
  `k` is feature `k % 300` of row `l + k / 300`); the layer multiplies it by a weight matrix `W[k, f]` and adds a bias:

      out[b, f, l] = Σ_{k < 1500} W[k, f] · pad(x)[b, l + k / 300, k % 300]  +  bias[f].

  Nothing here mentions a program.
-/
import Idealize.ShloMosaic.PureOps.Ideal
import Idealize.ShloMosaic.Lib.ValueIdx

noncomputable section

namespace Cert.ContextConv

open Idealize.ShloMosaic Idealize.ShloMosaic.ValueIdx

/-- Row `j` of sequence `b` after padding: rows `2 … L+1` are the sequence's rows `0 … L-1`, every other row is zero. -/
def padded {B L : ℕ} (x : (⟨3, ![B, L, 300]⟩ : Shape).Idx → EReal) (b : Fin B) (j : ℕ) (e : Fin 300) : EReal :=
  if h : 2 ≤ j ∧ j < L + 2 then x (ix3 b ⟨j - 2, by omega⟩ e) else 0

/-- A padded row inside the sequence. -/
theorem padded_of_mem {B L : ℕ} (x : (⟨3, ![B, L, 300]⟩ : Shape).Idx → EReal) (b : Fin B) (j : ℕ) (e : Fin 300)
    (h : 2 ≤ j ∧ j < L + 2) : padded x b j e = x (ix3 b ⟨j - 2, by omega⟩ e) := dif_pos h

/-- A padded row outside the sequence is zero. -/
theorem padded_of_not_mem {B L : ℕ} (x : (⟨3, ![B, L, 300]⟩ : Shape).Idx → EReal) (b : Fin B) (j : ℕ) (e : Fin 300)
    (h : ¬(2 ≤ j ∧ j < L + 2)) : padded x b j e = 0 := dif_neg h

/-- Feature `f` of the layer at token `l` of sequence `b`. -/
def conv {B L : ℕ} (x : (⟨3, ![B, L, 300]⟩ : Shape).Idx → EReal) (W : (⟨2, ![1500, 512]⟩ : Shape).Idx → EReal)
    (bias : (⟨1, ![512]⟩ : Shape).Idx → EReal) (b : Fin B) (l : Fin L) (f : Fin 512) : EReal :=
  (∑ k : Fin 1500, W (ix2 k f) * padded x b (l.val + k.val / 300) ⟨k.val % 300, Nat.mod_lt _ (by norm_num)⟩)
    + bias (ix1 f)

/-- The layer's result array, features before tokens: `[B, 512, L]`. -/
def result {B L : ℕ} (x : (⟨3, ![B, L, 300]⟩ : Shape).Idx → EReal) (W : (⟨2, ![1500, 512]⟩ : Shape).Idx → EReal)
    (bias : (⟨1, ![512]⟩ : Shape).Idx → EReal) : (⟨3, ![B, 512, L]⟩ : Shape).Idx → EReal :=
  fun i => conv x W bias (i 0) (i 2) (i 1)

end Cert.ContextConv

end
-- ==== Proof.RefValue.lean ====
/-
  The reference program's two results, read at an index: each is the context-window convolution of its input.

  For an input `x[b, l, e]` the reference pads two zero rows before and after each sequence, takes the five windows of
  rows starting at rows 0 … 4, lays them end to end along the feature axis (position `k` of the 1500 is feature
  `k % 300` of padded row `l + k / 300`), contracts with the weights over those 1500 positions, moves the feature axis
  before the token axis and adds the bias along it. Each stage is read at an index from the stage before; the padded
  array and the five-piece concatenation are read here, the other stages by the generated reading lemmas.
-/
import proofs.«123280_j53687091200212_2_alg».proof.Proof.Gen.ReferenceIdeal.Read
import proofs.«123280_j53687091200212_2_alg».proof.Proof.ConvSpec
import Idealize.ShloMosaic.Lib.Pipeline.Value
import Idealize.ShloMosaic.Lib.ValueIdx
import Idealize.ShloMosaic.Lib.KernelVsHost
import Idealize.ShloMosaic.PureOps.Ideal.Laws

noncomputable section

namespace Cert.ReferenceIdeal.RefValue

open Cert.ReferenceIdeal Idealize.ShloMosaic Idealize.ShloMosaic.ValueIdx Cert.ContextConv

/-- The padded array read at row `j`: the operand's row `j - 2` inside the sequence, the padding value outside. -/
theorem pad_rows_apply {B L L' : ℕ} (x : (⟨3, ![B, L, 300]⟩ : Shape).Idx → EReal) {u : Shape} (v : u.Idx → EReal)
    (h : (⟨3, ![B, L, 300]⟩ : Shape).Pads (![0, 2, 0] : Fin 3 → Nat) ![0, 2, 0] ![0, 0, 0] ⟨3, ![B, L', 300]⟩)
    (hu : 0 < u.numel) (hv : v (Shape.Idx.first hu) = 0) (hL : L' = L + 4)
    (b : Fin B) (j : Fin L') (e : Fin 300) :
    pad (⟨3, ![B, L', 300]⟩ : Shape) (![0, 2, 0] : Fin 3 → Nat) ![0, 2, 0] ![0, 0, 0] x v h hu (ix3 b j e)
      = padded x b j.val e := by
  by_cases hj : 2 ≤ j.val ∧ j.val < L + 2
  · rw [padded_of_mem x b j.val e hj]
    refine pad_apply_of_inside _ _ _ x v h hu (ix3 b j e) (ix3 b ⟨j.val - 2, by omega⟩ e) (fun a => ?_)
    match a with
    | ⟨0, _⟩ => show b.val = 0 + b.val * (0 + 1); omega
    | ⟨1, _⟩ => show j.val = 2 + (j.val - 2) * (0 + 1); omega
    | ⟨2, _⟩ => show e.val = 0 + e.val * (0 + 1); omega
  · rw [padded_of_not_mem x b j.val e hj, ← hv]
    refine pad_apply_of_not_inside _ _ _ x v h hu (ix3 b j e) 1 (fun hin => hj ?_)
    have h1 : 2 ≤ j.val := hin.1
    have h3 : (j.val - 2) / (0 + 1) < L := hin.2.2
    rw [Nat.zero_add, Nat.div_one] at h3
    omega

/-- Five arrays of 300 columns laid end to end along the last axis, read at column `k`: piece `k / 300` at column
    `k % 300`, the other two coordinates unchanged. -/
theorem concat5_apply {α : Type} {B L : ℕ} (y0 y1 y2 y3 y4 : (⟨3, ![B, L, 300]⟩ : Shape).Idx → α)
    (h : Shape.Concatenates [(⟨3, ![B, L, 300]⟩ : Shape), ⟨3, ![B, L, 300]⟩, ⟨3, ![B, L, 300]⟩, ⟨3, ![B, L, 300]⟩,
      ⟨3, ![B, L, 300]⟩] ⟨3, ![B, L, 1500]⟩ 2)
    (b : Fin B) (l : Fin L) (k : Fin 1500) (p : Fin 5) (hp : k.val / 300 = p.val) :
    concatenate (⟨3, ![B, L, 1500]⟩ : Shape) 2
        [⟨⟨3, ![B, L, 300]⟩, y0⟩, ⟨⟨3, ![B, L, 300]⟩, y1⟩, ⟨⟨3, ![B, L, 300]⟩, y2⟩, ⟨⟨3, ![B, L, 300]⟩, y3⟩,
          ⟨⟨3, ![B, L, 300]⟩, y4⟩] h (ix3 b l k)
      = (![y0, y1, y2, y3, y4] p) (ix3 b l ⟨k.val % 300, Nat.mod_lt _ (by norm_num)⟩) := by
  have hi : ∀ c : Fin 3, c.cast rfl ≠ (2 : Fin 3) →
      ((ix3 b l (⟨k.val % 300, Nat.mod_lt _ (by norm_num)⟩ : Fin 300)) c).val = ((ix3 b l k) (c.cast rfl)).val :=
    fun c hc => match c, hc with
      | ⟨0, _⟩, _ => rfl
      | ⟨1, _⟩, _ => rfl
      | ⟨2, _⟩, hc => absurd rfl hc
  match p, hp with
  | ⟨0, _⟩, hp =>
    have hp' : k.val / 300 = 0 := hp
    exact concatenate_apply_piece 2 [⟨⟨3, ![B, L, 300]⟩, y0⟩, ⟨⟨3, ![B, L, 300]⟩, y1⟩, ⟨⟨3, ![B, L, 300]⟩, y2⟩, ⟨⟨3, ![B, L, 300]⟩, y3⟩, ⟨⟨3, ![B, L, 300]⟩, y4⟩] h (ix3 b l k) 0 (by simp) _ y0 rfl rfl 0 rfl _ hi
      (by show 0 + k.val % 300 = k.val; omega)
  | ⟨1, _⟩, hp =>
    have hp' : k.val / 300 = 1 := hp
    exact concatenate_apply_piece 2 [⟨⟨3, ![B, L, 300]⟩, y0⟩, ⟨⟨3, ![B, L, 300]⟩, y1⟩, ⟨⟨3, ![B, L, 300]⟩, y2⟩, ⟨⟨3, ![B, L, 300]⟩, y3⟩, ⟨⟨3, ![B, L, 300]⟩, y4⟩] h (ix3 b l k) 1 (by simp) _ y1 rfl rfl 300 rfl _ hi
      (by show 300 + k.val % 300 = k.val; omega)
  | ⟨2, _⟩, hp =>
    have hp' : k.val / 300 = 2 := hp
    exact concatenate_apply_piece 2 [⟨⟨3, ![B, L, 300]⟩, y0⟩, ⟨⟨3, ![B, L, 300]⟩, y1⟩, ⟨⟨3, ![B, L, 300]⟩, y2⟩, ⟨⟨3, ![B, L, 300]⟩, y3⟩, ⟨⟨3, ![B, L, 300]⟩, y4⟩] h (ix3 b l k) 2 (by simp) _ y2 rfl rfl 600 rfl _ hi
      (by show 600 + k.val % 300 = k.val; omega)
  | ⟨3, _⟩, hp =>
    have hp' : k.val / 300 = 3 := hp
    exact concatenate_apply_piece 2 [⟨⟨3, ![B, L, 300]⟩, y0⟩, ⟨⟨3, ![B, L, 300]⟩, y1⟩, ⟨⟨3, ![B, L, 300]⟩, y2⟩, ⟨⟨3, ![B, L, 300]⟩, y3⟩, ⟨⟨3, ![B, L, 300]⟩, y4⟩] h (ix3 b l k) 3 (by simp) _ y3 rfl rfl 900 rfl _ hi
      (by show 900 + k.val % 300 = k.val; omega)
  | ⟨4, _⟩, hp =>
    have hp' : k.val / 300 = 4 := hp
    exact concatenate_apply_piece 2 [⟨⟨3, ![B, L, 300]⟩, y0⟩, ⟨⟨3, ![B, L, 300]⟩, y1⟩, ⟨⟨3, ![B, L, 300]⟩, y2⟩, ⟨⟨3, ![B, L, 300]⟩, y3⟩, ⟨⟨3, ![B, L, 300]⟩, y4⟩] h (ix3 b l k) 4 (by simp) _ y4 rfl rfl 1200 rfl _ hi
      (by show 1200 + k.val % 300 = k.val; omega)

/-! ## The question input: sequences of 64 tokens -/

/-- The padding value is the integer zero converted, which is zero. -/
theorem question_pad_value (i : S_.Idx) : Read.val_main_call0_v0 (F := Ideal) i = 0 :=
  sitofp_zero (φ := .f32)

/-- The padded array at row `j` is `padded`. -/
theorem question_padded_apply (x0 : (⟨S256x64x300, .f32⟩ : BufTy).Contents (Elt Ideal)) (b : Fin 256) (j : Fin 68) (e : Fin 300) :
    Read.val_main_v0 (F := Ideal) x0 (ix3 b j e) = padded x0 b j.val e := by
  unfold Read.val_main_v0
  exact pad_rows_apply x0 _ _ _ (question_pad_value _) rfl b j e

/-- The slice starting at row 0, read at row `l`, is padded row `l + 0`. -/
theorem question_slice0_apply (x0 : (⟨S256x64x300, .f32⟩ : BufTy).Contents (Elt Ideal)) (b : Fin 256) (l : Fin 64) (e : Fin 300) :
    Read.val_main_v1 (F := Ideal) x0 (ix3 b l e) = padded x0 b (l.val + 0) e := by
  rw [Read.val_main_v1_apply, show Read.idx_main_v1 (ix3 b l e) = ix3 b (⟨0 + l.val, by omega⟩ : Fin 68) e from
    funext fun a => Fin.ext (by
      match a with
      | ⟨0, _⟩ => rfl
      | ⟨1, _⟩ => exact (Nat.zero_add _).symm
      | ⟨2, _⟩ => rfl), question_padded_apply]
  exact congrArg (fun n => padded x0 b n e) (Nat.add_comm 0 l.val)

/-- The slice starting at row 1, read at row `l`, is padded row `l + 1`. -/
theorem question_slice1_apply (x0 : (⟨S256x64x300, .f32⟩ : BufTy).Contents (Elt Ideal)) (b : Fin 256) (l : Fin 64) (e : Fin 300) :
    Read.val_main_v2 (F := Ideal) x0 (ix3 b l e) = padded x0 b (l.val + 1) e := by
  rw [Read.val_main_v2_apply, show Read.idx_main_v2 (ix3 b l e) = ix3 b (⟨1 + l.val, by omega⟩ : Fin 68) e from
    funext fun a => Fin.ext (by
      match a with
      | ⟨0, _⟩ => rfl
      | ⟨1, _⟩ => rfl
      | ⟨2, _⟩ => rfl), question_padded_apply]
  exact congrArg (fun n => padded x0 b n e) (Nat.add_comm 1 l.val)

/-- The slice starting at row 2, read at row `l`, is padded row `l + 2`. -/
theorem question_slice2_apply (x0 : (⟨S256x64x300, .f32⟩ : BufTy).Contents (Elt Ideal)) (b : Fin 256) (l : Fin 64) (e : Fin 300) :
    Read.val_main_v3 (F := Ideal) x0 (ix3 b l e) = padded x0 b (l.val + 2) e := by
  rw [Read.val_main_v3_apply, show Read.idx_main_v3 (ix3 b l e) = ix3 b (⟨2 + l.val, by omega⟩ : Fin 68) e from
    funext fun a => Fin.ext (by
      match a with
      | ⟨0, _⟩ => rfl
      | ⟨1, _⟩ => rfl
      | ⟨2, _⟩ => rfl), question_padded_apply]
  exact congrArg (fun n => padded x0 b n e) (Nat.add_comm 2 l.val)

/-- The slice starting at row 3, read at row `l`, is padded row `l + 3`. -/
theorem question_slice3_apply (x0 : (⟨S256x64x300, .f32⟩ : BufTy).Contents (Elt Ideal)) (b : Fin 256) (l : Fin 64) (e : Fin 300) :
    Read.val_main_v4 (F := Ideal) x0 (ix3 b l e) = padded x0 b (l.val + 3) e := by
  rw [Read.val_main_v4_apply, show Read.idx_main_v4 (ix3 b l e) = ix3 b (⟨3 + l.val, by omega⟩ : Fin 68) e from
    funext fun a => Fin.ext (by
      match a with
      | ⟨0, _⟩ => rfl
      | ⟨1, _⟩ => rfl
      | ⟨2, _⟩ => rfl), question_padded_apply]
  exact congrArg (fun n => padded x0 b n e) (Nat.add_comm 3 l.val)

/-- The slice starting at row 4, read at row `l`, is padded row `l + 4`. -/
theorem question_slice4_apply (x0 : (⟨S256x64x300, .f32⟩ : BufTy).Contents (Elt Ideal)) (b : Fin 256) (l : Fin 64) (e : Fin 300) :
    Read.val_main_v5 (F := Ideal) x0 (ix3 b l e) = padded x0 b (l.val + 4) e := by
  rw [Read.val_main_v5_apply, show Read.idx_main_v5 (ix3 b l e) = ix3 b (⟨4 + l.val, by omega⟩ : Fin 68) e from
    funext fun a => Fin.ext (by
      match a with
      | ⟨0, _⟩ => rfl
      | ⟨1, _⟩ => rfl
      | ⟨2, _⟩ => rfl), question_padded_apply]
  exact congrArg (fun n => padded x0 b n e) (Nat.add_comm 4 l.val)

/-- Piece `p` of the concatenation, read at row `l`, is padded row `l + p`. -/
theorem question_piece_apply (x0 : (⟨S256x64x300, .f32⟩ : BufTy).Contents (Elt Ideal)) (b : Fin 256) (l : Fin 64) (p : Fin 5) (e : Fin 300) :
    (![Read.val_main_v1 (F := Ideal) x0, Read.val_main_v2 (F := Ideal) x0, Read.val_main_v3 (F := Ideal) x0,
        Read.val_main_v4 (F := Ideal) x0, Read.val_main_v5 (F := Ideal) x0] p) (ix3 b l e)
      = padded x0 b (l.val + p.val) e :=
  match p with
  | ⟨0, _⟩ => question_slice0_apply x0 b l e
  | ⟨1, _⟩ => question_slice1_apply x0 b l e
  | ⟨2, _⟩ => question_slice2_apply x0 b l e
  | ⟨3, _⟩ => question_slice3_apply x0 b l e
  | ⟨4, _⟩ => question_slice4_apply x0 b l e

/-- The context vector of token `l`: position `k` is feature `k % 300` of padded row `l + k / 300`. -/
theorem question_context_apply (x0 : (⟨S256x64x300, .f32⟩ : BufTy).Contents (Elt Ideal)) (b : Fin 256) (l : Fin 64) (k : Fin 1500) :
    Read.val_main_v6 (F := Ideal) x0 (ix3 b l k)
      = padded x0 b (l.val + k.val / 300) ⟨k.val % 300, Nat.mod_lt _ (by norm_num)⟩ := by
  have hk : k.val / 300 < 5 := by have := k.isLt; omega
  unfold Read.val_main_v6
  exact (concat5_apply _ _ _ _ _ _ b l k ⟨k.val / 300, hk⟩ rfl).trans
    (question_piece_apply x0 b l ⟨k.val / 300, hk⟩ _)

/-- The reference's result on this input is the context-window convolution. -/
theorem question_eq (x0 : (⟨S256x64x300, .f32⟩ : BufTy).Contents (Elt Ideal)) (x2 : (⟨S1500x512, .f32⟩ : BufTy).Contents (Elt Ideal))
    (x3 : (⟨S512, .f32⟩ : BufTy).Contents (Elt Ideal)) :
    Read.val_main_v11 (F := Ideal) x0 x2 x3 = Cert.ContextConv.result x0 x2 x3 := by
  funext i
  obtain ⟨b, f, l, rfl⟩ : ∃ (b : Fin 256) (f : Fin 512) (l : Fin 64), i = ix3 b f l := ⟨i 0, i 1, i 2, eq_ix3 i⟩
  show _ = conv x0 x2 x3 b l f
  rw [Read.val_main_v11_apply, Read.val_main_v8_apply, Read.val_main_v7_apply, Read.val_main_v10_apply, Read.val_main_v9_apply, Ideal.addf_def]
  unfold conv
  have eb : Read.idx_main_v9 (Read.idx_main_v10 (ix3 b f l)) = ix1 f :=
    funext fun a => Fin.ext (by match a with | ⟨0, _⟩ => rfl)
  rw [eb]
  refine congrArg (· + x3 (ix1 f)) (Finset.sum_congr rfl fun k _ => ?_)
  have el : Read.lidx_main_v7 (Read.idx_main_v8 (ix3 b f l)) k = ix2 k f :=
    funext fun a => Fin.ext (by match a with | ⟨0, _⟩ => rfl | ⟨1, _⟩ => rfl)
  have er : Read.ridx_main_v7 (Read.idx_main_v8 (ix3 b f l)) k = ix3 b l k :=
    funext fun a => Fin.ext (by match a with | ⟨0, _⟩ => rfl | ⟨1, _⟩ => rfl | ⟨2, _⟩ => rfl)
  rw [el, er, question_context_apply]

/-! ## The answer input: sequences of 256 tokens -/

/-- The padding value is the integer zero converted, which is zero. -/
theorem answer_pad_value (i : S_.Idx) : Read.val_main_call1_v0 (F := Ideal) i = 0 :=
  sitofp_zero (φ := .f32)

/-- The padded array at row `j` is `padded`. -/
theorem answer_padded_apply (x1 : (⟨S256x256x300, .f32⟩ : BufTy).Contents (Elt Ideal)) (b : Fin 256) (j : Fin 260) (e : Fin 300) :
    Read.val_main_v12 (F := Ideal) x1 (ix3 b j e) = padded x1 b j.val e := by
  unfold Read.val_main_v12
  exact pad_rows_apply x1 _ _ _ (answer_pad_value _) rfl b j e

/-- The slice starting at row 0, read at row `l`, is padded row `l + 0`. -/
theorem answer_slice0_apply (x1 : (⟨S256x256x300, .f32⟩ : BufTy).Contents (Elt Ideal)) (b : Fin 256) (l : Fin 256) (e : Fin 300) :
    Read.val_main_v13 (F := Ideal) x1 (ix3 b l e) = padded x1 b (l.val + 0) e := by
  rw [Read.val_main_v13_apply, show Read.idx_main_v13 (ix3 b l e) = ix3 b (⟨0 + l.val, by omega⟩ : Fin 260) e from
    funext fun a => Fin.ext (by
      match a with
      | ⟨0, _⟩ => rfl
      | ⟨1, _⟩ => exact (Nat.zero_add _).symm
      | ⟨2, _⟩ => rfl), answer_padded_apply]
  exact congrArg (fun n => padded x1 b n e) (Nat.add_comm 0 l.val)

/-- The slice starting at row 1, read at row `l`, is padded row `l + 1`. -/
theorem answer_slice1_apply (x1 : (⟨S256x256x300, .f32⟩ : BufTy).Contents (Elt Ideal)) (b : Fin 256) (l : Fin 256) (e : Fin 300) :
    Read.val_main_v14 (F := Ideal) x1 (ix3 b l e) = padded x1 b (l.val + 1) e := by
  rw [Read.val_main_v14_apply, show Read.idx_main_v14 (ix3 b l e) = ix3 b (⟨1 + l.val, by omega⟩ : Fin 260) e from
    funext fun a => Fin.ext (by
      match a with
      | ⟨0, _⟩ => rfl
      | ⟨1, _⟩ => rfl
      | ⟨2, _⟩ => rfl), answer_padded_apply]
  exact congrArg (fun n => padded x1 b n e) (Nat.add_comm 1 l.val)

/-- The slice starting at row 2, read at row `l`, is padded row `l + 2`. -/
theorem answer_slice2_apply (x1 : (⟨S256x256x300, .f32⟩ : BufTy).Contents (Elt Ideal)) (b : Fin 256) (l : Fin 256) (e : Fin 300) :
    Read.val_main_v15 (F := Ideal) x1 (ix3 b l e) = padded x1 b (l.val + 2) e := by
  rw [Read.val_main_v15_apply, show Read.idx_main_v15 (ix3 b l e) = ix3 b (⟨2 + l.val, by omega⟩ : Fin 260) e from
    funext fun a => Fin.ext (by
      match a with
      | ⟨0, _⟩ => rfl
      | ⟨1, _⟩ => rfl
      | ⟨2, _⟩ => rfl), answer_padded_apply]
  exact congrArg (fun n => padded x1 b n e) (Nat.add_comm 2 l.val)

/-- The slice starting at row 3, read at row `l`, is padded row `l + 3`. -/
theorem answer_slice3_apply (x1 : (⟨S256x256x300, .f32⟩ : BufTy).Contents (Elt Ideal)) (b : Fin 256) (l : Fin 256) (e : Fin 300) :
    Read.val_main_v16 (F := Ideal) x1 (ix3 b l e) = padded x1 b (l.val + 3) e := by
  rw [Read.val_main_v16_apply, show Read.idx_main_v16 (ix3 b l e) = ix3 b (⟨3 + l.val, by omega⟩ : Fin 260) e from
    funext fun a => Fin.ext (by
      match a with
      | ⟨0, _⟩ => rfl
      | ⟨1, _⟩ => rfl
      | ⟨2, _⟩ => rfl), answer_padded_apply]
  exact congrArg (fun n => padded x1 b n e) (Nat.add_comm 3 l.val)

/-- The slice starting at row 4, read at row `l`, is padded row `l + 4`. -/
theorem answer_slice4_apply (x1 : (⟨S256x256x300, .f32⟩ : BufTy).Contents (Elt Ideal)) (b : Fin 256) (l : Fin 256) (e : Fin 300) :
    Read.val_main_v17 (F := Ideal) x1 (ix3 b l e) = padded x1 b (l.val + 4) e := by
  rw [Read.val_main_v17_apply, show Read.idx_main_v17 (ix3 b l e) = ix3 b (⟨4 + l.val, by omega⟩ : Fin 260) e from
    funext fun a => Fin.ext (by
      match a with
      | ⟨0, _⟩ => rfl
      | ⟨1, _⟩ => rfl
      | ⟨2, _⟩ => rfl), answer_padded_apply]
  exact congrArg (fun n => padded x1 b n e) (Nat.add_comm 4 l.val)

/-- Piece `p` of the concatenation, read at row `l`, is padded row `l + p`. -/
theorem answer_piece_apply (x1 : (⟨S256x256x300, .f32⟩ : BufTy).Contents (Elt Ideal)) (b : Fin 256) (l : Fin 256) (p : Fin 5) (e : Fin 300) :
    (![Read.val_main_v13 (F := Ideal) x1, Read.val_main_v14 (F := Ideal) x1, Read.val_main_v15 (F := Ideal) x1,
        Read.val_main_v16 (F := Ideal) x1, Read.val_main_v17 (F := Ideal) x1] p) (ix3 b l e)
      = padded x1 b (l.val + p.val) e :=
  match p with
  | ⟨0, _⟩ => answer_slice0_apply x1 b l e
  | ⟨1, _⟩ => answer_slice1_apply x1 b l e
  | ⟨2, _⟩ => answer_slice2_apply x1 b l e
  | ⟨3, _⟩ => answer_slice3_apply x1 b l e
  | ⟨4, _⟩ => answer_slice4_apply x1 b l e

/-- The context vector of token `l`: position `k` is feature `k % 300` of padded row `l + k / 300`. -/
theorem answer_context_apply (x1 : (⟨S256x256x300, .f32⟩ : BufTy).Contents (Elt Ideal)) (b : Fin 256) (l : Fin 256) (k : Fin 1500) :
    Read.val_main_v18 (F := Ideal) x1 (ix3 b l k)
      = padded x1 b (l.val + k.val / 300) ⟨k.val % 300, Nat.mod_lt _ (by norm_num)⟩ := by
  have hk : k.val / 300 < 5 := by have := k.isLt; omega
  unfold Read.val_main_v18
  exact (concat5_apply _ _ _ _ _ _ b l k ⟨k.val / 300, hk⟩ rfl).trans
    (answer_piece_apply x1 b l ⟨k.val / 300, hk⟩ _)

/-- The reference's result on this input is the context-window convolution. -/
theorem answer_eq (x1 : (⟨S256x256x300, .f32⟩ : BufTy).Contents (Elt Ideal)) (x2 : (⟨S1500x512, .f32⟩ : BufTy).Contents (Elt Ideal))
    (x3 : (⟨S512, .f32⟩ : BufTy).Contents (Elt Ideal)) :
    Read.val_main_v23 (F := Ideal) x1 x2 x3 = Cert.ContextConv.result x1 x2 x3 := by
  funext i
  obtain ⟨b, f, l, rfl⟩ : ∃ (b : Fin 256) (f : Fin 512) (l : Fin 256), i = ix3 b f l := ⟨i 0, i 1, i 2, eq_ix3 i⟩
  show _ = conv x1 x2 x3 b l f
  rw [Read.val_main_v23_apply, Read.val_main_v20_apply, Read.val_main_v19_apply, Read.val_main_v22_apply, Read.val_main_v21_apply, Ideal.addf_def]
  unfold conv
  have eb : Read.idx_main_v21 (Read.idx_main_v22 (ix3 b f l)) = ix1 f :=
    funext fun a => Fin.ext (by match a with | ⟨0, _⟩ => rfl)
  rw [eb]
  refine congrArg (· + x3 (ix1 f)) (Finset.sum_congr rfl fun k _ => ?_)
  have el : Read.lidx_main_v19 (Read.idx_main_v20 (ix3 b f l)) k = ix2 k f :=
    funext fun a => Fin.ext (by match a with | ⟨0, _⟩ => rfl | ⟨1, _⟩ => rfl)
  have er : Read.ridx_main_v19 (Read.idx_main_v20 (ix3 b f l)) k = ix3 b l k :=
    funext fun a => Fin.ext (by match a with | ⟨0, _⟩ => rfl | ⟨1, _⟩ => rfl | ⟨2, _⟩ => rfl)
  rw [el, er, answer_context_apply]

end Cert.ReferenceIdeal.RefValue

end
-- ==== Proof.Launched.lean ====
/-
  The idealized kernel program's run with its two results named.

  The program is four stretches in a row: host operations (the weight matrix regrouped into five 300-row slabs, the bias
  laid out as a row), the question branch's kernel launch over 16 batch tiles, one host transpose of its result, and the
  answer branch's launch over 32 batch tiles. Every weakly fair execution ends with each unscoped buffer at the contents
  of the last boundary of that chain; here that fact is kept for an arbitrary property of the final memory, and then
  specialised to the two result buffers and the four argument buffers.
-/
import proofs.«123280_j53687091200212_2_alg».proof.Proof.Gen.KernelIdeal.Frame

set_option maxRecDepth 16384

noncomputable section

namespace Cert.KernelIdeal.Launched

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, in a memory that holds, at every unscoped buffer, the
    contents of the chain's last boundary; so any property that follows from those contents holds of the final memory. -/
theorem run_post {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run with both results named: the question branch's result is the last boundary's contents of the transposed
    buffer, the answer branch's those of the second launch's output array; the four arguments end as launched. -/
theorem run : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_v5) = W4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_post m ρ fun s h c =>
    ⟨h c _ (mem_uc main_v4 (by decide)),
     h c _ (mem_uc main_v5 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩

end Cert.KernelIdeal.Launched

end
-- ==== Proof.LibOuterSumLayout.lean ====
/-
  Layout operations of a broadcast outer sum flattened to rows, each read at an index given by coordinates.

  A matrix `[a, c]` becomes a stack `[a, 1, c]` by a shape cast; a stack with a unit middle axis `[a, 1, c]`, or a
  unit leading axis `[1, b, c]`, is broadcast to `[a, b, c]`; and a stack `[a, b, c]` is flattened to the matrix
  `[a · b, c]` whose row `i · b + j` is the stack's row `(i, j)`, or a matrix of `a · b` rows is folded back.
  A shape cast keeps the row-major position; a broadcast reads coordinate `0` on the operand's unit axes.
-/
import Idealize.ShloMosaic.Lib.ValueLayout

namespace Idealize.ShloMosaic.ValueIdx

open Idealize.ShloMosaic

variable {α : Type}

/-- An `[a, c]` array cast to `[a, 1, c]` reads, at `(i, u, k)`, the operand at `(i, k)`, whatever the unit
    coordinate `u`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- An `[a, b, c]` stack flattened to `[n, c]` (`n = a · b`) reads, at row `r = i · b + j` and column `k`, the
    stack at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (i : Fin a) (j : Fin b) (k : Fin c)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- An `[n, c]` matrix (`n = a · b`) folded to the stack `[a, b, c]` reads, at `(i, j, k)`, the matrix at row
    `r = i · b + j` and column `k`. -/
theorem shapeCast_nc_abc_apply {a b c n : ℕ} (x : (⟨2, ![n, c]⟩ : Shape).Idx → α)
    (h : (⟨2, ![n, c]⟩ : Shape).ShapeCasts ⟨3, ![a, b, c]⟩) (r : Fin n) (i : Fin a) (j : Fin b) (k : Fin c)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

end Idealize.ShloMosaic.ValueIdx
-- ==== Proof.HostGlue.lean ====
/-
  The kernel program's host side: what each region finds in its input arrays, and where the two results lie at the
  return.

  Before the first region the weight matrix `[1500, 512]` is folded to five slabs `[5, 300, 512]` (slab `i`, row `e` is
  row `i * 300 + e`) and changed of format, which is the identity on the extended reals, and the bias `[512]` becomes
  one row `[1, 512]`. The first region leaves its result as `[256, 64, 512]`; one transpose of the last two axes makes
  it `[256, 512, 64]`. The second region reads the same folded weights and bias row, which the first region and the
  transpose leave untouched, and its output array is the second result as it stands.
-/
import proofs.«123280_j53687091200212_2_alg».proof.Proof.Gen.KernelIdeal.Frame
import proofs.«123280_j53687091200212_2_alg».proof.Proof.LibOuterSumLayout
import Idealize.ShloMosaic.Lib.ValueIdx
import Idealize.ShloMosaic.Lib.Pipeline.Value
import Idealize.ShloMosaic.Lib.ValueLayout
import Idealize.ShloMosaic.Lib.StableHlo.Run
import Idealize.ShloMosaic.Lib.Tactic

noncomputable section

namespace Cert.KernelIdeal.HostGlue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## Region 0's entry: the buffers after the first stretch of host operations -/

/-- No host operation before region 0 writes the question input. -/
theorem entry0_x : V1 m ρ c main_arg0 = m ((c : Thread nD τ).loc main_arg0) := by
  show StableHlo.after hostOps0 (W0 m ρ c) (Proc.devRef .tc main_arg0) = _
  after_results

/-- The weights enter region 0 folded to five slabs of 300 rows: slab `i`, row `e` is row `i * 300 + e` of the
    weight matrix (the change of format is the identity on the extended reals). -/
theorem entry0_w (i : Fin 5) (e : Fin 300) (f : Fin 512) :
    V1 m ρ c main_v1 (ValueIdx.ix3 i e f)
      = m ((c : Thread nD τ).loc main_arg2)
          (ValueIdx.ix2 ⟨i.val * 300 + e.val, by have := i.isLt; have := e.isLt; omega⟩ f) := by
  show StableHlo.after hostOps0 (W0 m ρ c) (Proc.devRef .tc main_v1) (ValueIdx.ix3 i e f) = _
  after_results
  exact ValueIdx.shapeCast_nc_abc_apply (m ((c : Thread nD τ).loc main_arg2)) shapeCasts_S1500x512_S5x300x512
    ⟨i.val * 300 + e.val, by have := i.isLt; have := e.isLt; omega⟩ i e f rfl

/-- The bias enters region 0 as one row. -/
theorem entry0_b (f : Fin 512) :
    V1 m ρ c main_v2 (ValueIdx.ix2 (0 : Fin 1) f) = m ((c : Thread nD τ).loc main_arg3) (ValueIdx.ix1 f) := by
  show StableHlo.after hostOps0 (W0 m ρ c) (Proc.devRef .tc main_v2) (ValueIdx.ix2 (0 : Fin 1) f) = _
  after_results
  exact ValueIdx.shapeCast_a_1a_apply (m ((c : Thread nD τ).loc main_arg3)) shapeCasts_S512_S1x512 0 f

/-! ## Region 1's entry: region 0's exit contents after the transpose -/

/-- The host operation between the regions writes the transposed result only. -/
theorem W3_of_ne (b : Ref sig .tc) (hb : b ≠ main_v4) :
    W3 m ρ c (Proc.devRef .tc b) = W2 m ρ c (Proc.devRef .tc b) := by
  show StableHlo.after hostOps1 (W2 m ρ c) (Proc.devRef .tc b) = _
  simp only [StableHlo.after_cons, StableHlo.after_nil]
  exact StableHlo.unary_result_ne _ _ _ _ _ _ hb

/-- The answer input is no array of region 0 and no host operation writes it. -/
theorem entry1_x : V3 m ρ c main_arg1 = m ((c : Thread nD τ).loc main_arg1) := by
  show W3 m ρ c (Proc.devRef .tc main_arg1) = _
  rw [W3_of_ne m ρ c main_arg1 (by decide), W2_of_ne m ρ c main_arg1 (by decide)]
  show StableHlo.after hostOps0 (W0 m ρ c) (Proc.devRef .tc main_arg1) = _
  after_results

/-- The folded weights are an input array of region 0: it leaves them as it found them. -/
theorem entry1_w : V3 m ρ c main_v1 = V1 m ρ c main_v1 :=
  (W3_of_ne m ρ c main_v1 (by decide)).trans
    ((W2_arr m ρ c 1).trans (((dat0 (V1 m ρ) c).arrAt_in 1 rfl _).trans (A_eq0 (V1 m ρ) c 1)))

/-- The bias row is an input array of region 0: it leaves it as it found it. -/
theorem entry1_b : V3 m ρ c main_v2 = V1 m ρ c main_v2 :=
  (W3_of_ne m ρ c main_v2 (by decide)).trans
    ((W2_arr m ρ c 2).trans (((dat0 (V1 m ρ) c).arrAt_in 2 rfl _).trans (A_eq0 (V1 m ρ) c 2)))

/-! ## The two results at the return -/

/-- The question result: region 0's output array with its last two axes exchanged. -/
theorem exit_q (b : Fin 256) (f : Fin 512) (l : Fin 64) :
    W4 m ρ c (Proc.devRef .tc main_v4) (ValueIdx.ix3 b f l)
      = (dat0 (V1 m ρ) c).arrAt 3 cfg0.N (ValueIdx.ix3 b l f) := by
  have h3 : W2 m ρ c (Proc.devRef .tc main_v3) = (dat0 (V1 m ρ) c).arrAt 3 cfg0.N := W2_arr m ρ c 3
  rw [W4_of_ne m ρ c main_v4 (by decide)]
  show StableHlo.after hostOps1 (W2 m ρ c) (Proc.devRef .tc main_v4) (ValueIdx.ix3 b f l) = _
  after_results
  rw [h3]
  exact ValueIdx.transpose_ix3_021_apply _ _ b f l

/-- The answer result: region 1's output array. -/
theorem exit_a : W4 m ρ c (Proc.devRef .tc main_v5) = (dat1 (V3 m ρ) c).arrAt 3 cfg1.N :=
  W4_arr m ρ c 3

end Cert.KernelIdeal.HostGlue

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.ConvLaw.lean ====
/-
  Accumulating the context-window contraction slab by slab.

  The 1500 positions of a token's context vector are five consecutive slabs of 300: slab `i` is padded row `l + i`, and
  it meets rows `300·i … 300·i + 299` of the weight matrix. Adding the five slabs' partial products one after another,
  starting from zero, is the whole contraction: only associativity and commutativity of the extended reals' addition and
  commutativity of their product are used, so the law holds at the infinities too.
-/
import proofs.«123280_j53687091200212_2_alg».proof.Proof.ConvSpec
import proofs.«123280_j53687091200212_2_alg».proof.Proof.LibSumBlocks

noncomputable section

namespace Cert.ContextConv

open Idealize.ShloMosaic Idealize.ShloMosaic.ValueIdx Cert.Lib.SumBlocks

/-- Row `e` of slab `i` of the weight matrix: row `300·i + e`. -/
def slab (W : (⟨2, ![1500, 512]⟩ : Shape).Idx → EReal) (i : Fin 5) (e : Fin 300) (f : Fin 512) : EReal :=
  W (ix2 ⟨i.val * 300 + e.val, by have := i.isLt; have := e.isLt; omega⟩ f)

/-- Slab `i`'s partial product at token `l` of sequence `b`. -/
def slabSum {B L : ℕ} (x : (⟨3, ![B, L, 300]⟩ : Shape).Idx → EReal) (W : (⟨2, ![1500, 512]⟩ : Shape).Idx → EReal)
    (b : Fin B) (l : Fin L) (f : Fin 512) (i : Fin 5) : EReal :=
  ∑ e : Fin 300, padded x b (l.val + i.val) e * slab W i e f

/-- The layer accumulated slab by slab from zero, the bias added last. -/
def accumulated {B L : ℕ} (x : (⟨3, ![B, L, 300]⟩ : Shape).Idx → EReal) (W : (⟨2, ![1500, 512]⟩ : Shape).Idx → EReal)
    (bias : (⟨1, ![512]⟩ : Shape).Idx → EReal) (b : Fin B) (l : Fin L) (f : Fin 512) : EReal :=
  (((((0 + slabSum x W b l f 0) + slabSum x W b l f 1) + slabSum x W b l f 2) + slabSum x W b l f 3)
    + slabSum x W b l f 4) + bias (ix1 f)

/-- A sum over five blocks, written out in order from zero. -/
theorem sum_range_five (g : ℕ → EReal) :
    ∑ s ∈ Finset.range 5, g s = ((((0 + g 0) + g 1) + g 2) + g 3) + g 4 := by
  simp [Finset.sum_range_succ]

/-- Position `q` of block `s` of the contraction is padded row `l + s`, feature `q`, against weight row `300·s + q`. -/
theorem block_term {B L : ℕ} (x : (⟨3, ![B, L, 300]⟩ : Shape).Idx → EReal) (W : (⟨2, ![1500, 512]⟩ : Shape).Idx → EReal)
    (b : Fin B) (l : Fin L) (f : Fin 512) (s : Fin 5) (q : Fin 300) :
    onNat (fun k : Fin 1500 => W (ix2 k f) * padded x b (l.val + k.val / 300) ⟨k.val % 300, Nat.mod_lt _ (by norm_num)⟩)
        (s.val * 300 + q.val)
      = padded x b (l.val + s.val) q * slab W s q f := by
  have hs := s.isLt
  have hq := q.isLt
  rw [onNat_of_lt _ _ (by omega)]
  have h1 : (s.val * 300 + q.val) / 300 = s.val := by omega
  have h2 : (s.val * 300 + q.val) % 300 = q.val := by omega
  have e : (⟨(s.val * 300 + q.val) % 300, Nat.mod_lt _ (by norm_num)⟩ : Fin 300) = q := Fin.ext h2
  show W (ix2 ⟨s.val * 300 + q.val, _⟩ f) * padded x b (l.val + (s.val * 300 + q.val) / 300) ⟨(s.val * 300 + q.val) % 300, _⟩ = _
  rw [e, h1, mul_comm]
  rfl

/-- The slab-by-slab accumulation is the layer. -/
theorem accumulated_eq_conv {B L : ℕ} (x : (⟨3, ![B, L, 300]⟩ : Shape).Idx → EReal)
    (W : (⟨2, ![1500, 512]⟩ : Shape).Idx → EReal) (bias : (⟨1, ![512]⟩ : Shape).Idx → EReal)
    (b : Fin B) (l : Fin L) (f : Fin 512) : accumulated x W bias b l f = conv x W bias b l f := by
  unfold accumulated conv
  rw [sum_fin_blocks 5 300 rfl, sum_range_five]
  have hb : ∀ s : Fin 5, (∑ q : Fin 300,
      onNat (fun k : Fin 1500 => W (ix2 k f) * padded x b (l.val + k.val / 300) ⟨k.val % 300, Nat.mod_lt _ (by norm_num)⟩)
        (s.val * 300 + q.val)) = slabSum x W b l f s :=
    fun s => Finset.sum_congr rfl fun q _ => block_term x W b l f s q
  rw [← hb 0, ← hb 1, ← hb 2, ← hb 3, ← hb 4]
  rfl

/-! ## The accumulation as one grid step computes it: weights as five slabs, the bias as a row -/

/-- The accumulation with the weights given slab by slab, `w[i, e, f]`, and the bias as the row `[1, 512]`. -/
def stepValue {B L : ℕ} (x : (⟨3, ![B, L, 300]⟩ : Shape).Idx → EReal) (w : (⟨3, ![5, 300, 512]⟩ : Shape).Idx → EReal)
    (brow : (⟨2, ![1, 512]⟩ : Shape).Idx → EReal) (b : Fin B) (l : Fin L) (f : Fin 512) : EReal :=
  (((((0 + ∑ e : Fin 300, padded x b (l.val + 0) e * w (ix3 (0 : Fin 5) e f))
      + ∑ e : Fin 300, padded x b (l.val + 1) e * w (ix3 (1 : Fin 5) e f))
      + ∑ e : Fin 300, padded x b (l.val + 2) e * w (ix3 (2 : Fin 5) e f))
      + ∑ e : Fin 300, padded x b (l.val + 3) e * w (ix3 (3 : Fin 5) e f))
      + ∑ e : Fin 300, padded x b (l.val + 4) e * w (ix3 (4 : Fin 5) e f))
    + brow (ix2 (0 : Fin 1) f)

/-- When the slabs are the weight matrix's and the row is the bias vector, it is the accumulated form. -/
theorem stepValue_eq_accumulated {B L : ℕ} (x : (⟨3, ![B, L, 300]⟩ : Shape).Idx → EReal)
    (W : (⟨2, ![1500, 512]⟩ : Shape).Idx → EReal) (bias : (⟨1, ![512]⟩ : Shape).Idx → EReal)
    (w : (⟨3, ![5, 300, 512]⟩ : Shape).Idx → EReal) (brow : (⟨2, ![1, 512]⟩ : Shape).Idx → EReal)
    (hw : ∀ (i : Fin 5) (e : Fin 300) (f : Fin 512), w (ix3 i e f) = slab W i e f)
    (hb : ∀ f : Fin 512, brow (ix2 (0 : Fin 1) f) = bias (ix1 f)) (b : Fin B) (l : Fin L) (f : Fin 512) :
    stepValue x w brow b l f = accumulated x W bias b l f := by
  unfold stepValue accumulated slabSum
  simp only [hw, hb]
  rfl

/-- Padding looks at one sequence only: two arrays that agree on a sequence have the same padded rows there. -/
theorem padded_congr_row {B B' L : ℕ} (x : (⟨3, ![B, L, 300]⟩ : Shape).Idx → EReal)
    (x' : (⟨3, ![B', L, 300]⟩ : Shape).Idx → EReal) (b : Fin B) (b' : Fin B')
    (h : ∀ (l : Fin L) (e : Fin 300), x (ix3 b l e) = x' (ix3 b' l e)) (j : ℕ) (e : Fin 300) :
    padded x b j e = padded x' b' j e := by
  unfold padded
  split
  · exact h _ e
  · rfl

/-- So a grid step on a batch tile computes, for each of the tile's sequences, what it would on the whole batch. -/
theorem stepValue_congr_row {B B' L : ℕ} (x : (⟨3, ![B, L, 300]⟩ : Shape).Idx → EReal)
    (x' : (⟨3, ![B', L, 300]⟩ : Shape).Idx → EReal) (w : (⟨3, ![5, 300, 512]⟩ : Shape).Idx → EReal)
    (brow : (⟨2, ![1, 512]⟩ : Shape).Idx → EReal) (b : Fin B) (b' : Fin B')
    (h : ∀ (l : Fin L) (e : Fin 300), x (ix3 b l e) = x' (ix3 b' l e)) (l : Fin L) (f : Fin 512) :
    stepValue x w brow b l f = stepValue x' w brow b' l f := by
  unfold stepValue
  simp only [padded_congr_row x x' b b' h]

end Cert.ContextConv

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.LibUnitRect.lean ====
/-
  A unit-stride rectangle of a rank-3 array, at coordinates.

  The rectangle of sizes `[m0, m1, m2]` at offsets `[o0, o1, o2]` places its own index `(a, b, c)` at the array index
  `(o0 + a, o1 + b, o2 + c)`, and that array index lies in the rectangle. Nothing here mentions a program.
-/
import Idealize.ShloMosaic.Lib.Pipeline.Value
import Idealize.ShloMosaic.Lib.ValueIdx

noncomputable section

namespace Cert.Lib.UnitRect

open Idealize.ShloMosaic Idealize.ShloMosaic.ValueIdx

variable {n0 n1 n2 m0 m1 m2 o0 o1 o2 : ℕ}

/-- The rectangle's index `(a, b, c)` sits at `(o0 + a, o1 + b, o2 + c)`. -/
theorem emb_ix3 (h0 : o0 + m0 ≤ n0) (h1 : o1 + m1 ≤ n1) (h2 : o2 + m2 ≤ n2)
    (inb : ∀ a, (![o0, o1, o2] : Fin 3 → ℕ) a + (![m0, m1, m2] : Fin 3 → ℕ) a ≤ (⟨3, ![n0, n1, n2]⟩ : Shape).size a)
    (a : Fin m0) (b : Fin m1) (c : Fin m2) :
    (Rect.unit (s := ⟨3, ![n0, n1, n2]⟩) ![o0, o1, o2] ![m0, m1, m2] inb).emb (ix3 a b c)
      = ix3 (⟨o0 + a.val, by have := a.isLt; omega⟩ : Fin n0) (⟨o1 + b.val, by have := b.isLt; omega⟩ : Fin n1)
          (⟨o2 + c.val, by have := c.isLt; omega⟩ : Fin n2) :=
  funext fun d => Fin.ext (by
    match d with
    | ⟨0, _⟩ => show o0 + 1 * a.val = o0 + a.val; omega
    | ⟨1, _⟩ => show o1 + 1 * b.val = o1 + b.val; omega
    | ⟨2, _⟩ => show o2 + 1 * c.val = o2 + c.val; omega)

/-- The same for a load through the rectangle. -/
theorem idx_ix3 (h0 : o0 + m0 ≤ n0) (h1 : o1 + m1 ≤ n1) (h2 : o2 + m2 ≤ n2)
    (inb : ∀ a, (![o0, o1, o2] : Fin 3 → ℕ) a + (![m0, m1, m2] : Fin 3 → ℕ) a ≤ (⟨3, ![n0, n1, n2]⟩ : Shape).size a)
    (a : Fin m0) (b : Fin m1) (c : Fin m2) :
    (Rect.unit (s := ⟨3, ![n0, n1, n2]⟩) ![o0, o1, o2] ![m0, m1, m2] inb).toLoadRect.idx (ix3 a b c)
      = ix3 (⟨o0 + a.val, by have := a.isLt; omega⟩ : Fin n0) (⟨o1 + b.val, by have := b.isLt; omega⟩ : Fin n1)
          (⟨o2 + c.val, by have := c.isLt; omega⟩ : Fin n2) :=
  emb_ix3 h0 h1 h2 inb a b c

/-- An array index whose coordinates are within the rectangle's ranges is in the rectangle. -/
theorem mem_ix3 (inb : ∀ a, (![o0, o1, o2] : Fin 3 → ℕ) a + (![m0, m1, m2] : Fin 3 → ℕ) a ≤ (⟨3, ![n0, n1, n2]⟩ : Shape).size a)
    (a : Fin n0) (b : Fin n1) (c : Fin n2) (ha : o0 ≤ a.val ∧ a.val < o0 + m0) (hb : o1 ≤ b.val ∧ b.val < o1 + m1)
    (hc : o2 ≤ c.val ∧ c.val < o2 + m2) :
    (ix3 a b c : (⟨3, ![n0, n1, n2]⟩ : Shape).Idx) ∈ (Rect.unit (s := ⟨3, ![n0, n1, n2]⟩) ![o0, o1, o2] ![m0, m1, m2] inb).set :=
  Rect.mem_set_unit.mpr fun d => by
    match d with
    | ⟨0, _⟩ => exact ha
    | ⟨1, _⟩ => exact hb
    | ⟨2, _⟩ => exact hc

end Cert.Lib.UnitRect

end
-- ==== Proof.LibRowOverStack.lean ====
/-
  A row broadcast over a stack of matrices, read at an index.

  A row `[1, c]` viewed as `[1, 1, c]` and broadcast to `[a, b, c]` reads, at `(i, j, k)`, the row's entry `k`.
  Nothing here mentions a program.
-/
import Idealize.ShloMosaic.Lib.Pipeline.Value
import Idealize.ShloMosaic.Lib.ValueIdx

noncomputable section

namespace Cert.Lib.RowOverStack

open Idealize.ShloMosaic Idealize.ShloMosaic.ValueIdx

variable {α : Type}

/-- A row `[1, c]` viewed as `[1, 1, c]` reads, at `(0, 0, k)`, the row's entry `k`. -/
theorem lift_apply {c : ℕ} (x : (⟨2, ![1, c]⟩ : Shape).Idx → α)
    (h : (⟨2, ![1, c]⟩ : Shape).ShapeCasts ⟨3, ![1, 1, c]⟩) (k : Fin c) :
    shapeCast ⟨3, ![1, 1, c]⟩ x h (ix3 (0 : Fin 1) (0 : Fin 1) k) = x (ix2 (0 : Fin 1) k) :=
  shapeCast_apply x h _ _ (by
    rw [Shape.rowMajor_val_three, Shape.rowMajor_val_two]
    show 0 * c + k.val = (0 * 1 + 0) * c + k.val
    omega)

/-- A `[1, 1, c]` array broadcast to `[a, b, c]` reads, at `(i, j, k)`, the operand at `(0, 0, k)`. -/
theorem spread_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The two together: the row's entry `k` at every `(i, j, k)`. -/
theorem apply {a b c : ℕ} (x : (⟨2, ![1, c]⟩ : Shape).Idx → α)
    (h1 : (⟨2, ![1, c]⟩ : Shape).ShapeCasts ⟨3, ![1, 1, c]⟩) (h2 : (⟨3, ![1, 1, c]⟩ : Shape).Broadcasts ⟨3, ![a, b, c]⟩)
    (i : Fin a) (j : Fin b) (k : Fin c) :
    broadcastTo ⟨3, ![a, b, c]⟩ (shapeCast ⟨3, ![1, 1, c]⟩ x h1) h2 (ix3 i j k) = x (ix2 (0 : Fin 1) k) :=
  (spread_apply _ h2 i j k).trans (lift_apply x h1 k)

end Cert.Lib.RowOverStack

end
-- ==== Proof.StepQ.lean ====
/-
  One grid step of the question branch, read as a value.

  One grid step works on 16 whole sequences of 64 tokens. It builds the zero-padded sequences in a scratch array of
  68 rows per sequence (rows 2 … 65 the step's input block, rows 0, 1, 66, 67 zero), clears an accumulator, and five
  times adds to it the product of the 64 scratch rows starting at row i (i = 0 … 4) with slab i of the weights; last it
  adds the bias row. Read at token l of sequence b and feature f the block it writes back is

      ((((0 + P₀) + P₁) + P₂) + P₃) + P₄ + bias[f],   Pᵢ = Σ_e pad(x)[b, l + i, e] · w[i, e, f].
-/
import proofs.«123280_j53687091200212_2_alg».proof.Proof.Gen.KernelIdeal.Frame
import proofs.«123280_j53687091200212_2_alg».proof.Proof.ConvLaw
import proofs.«123280_j53687091200212_2_alg».proof.Proof.LibPlainMatmul
import proofs.«123280_j53687091200212_2_alg».proof.Proof.LibOuterSumLayout
import proofs.«123280_j53687091200212_2_alg».proof.Proof.LibUnitRect
import proofs.«123280_j53687091200212_2_alg».proof.Proof.LibRowOverStack
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx

namespace Cert.KernelIdeal.StepQ

open Cert.KernelIdeal Cert.KernelIdeal.Gen Cert.ContextConv

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the step leaves in its output block, as one pure term -/

/-- The scratch array's three stores, the last first: the input block (cast) into rows 2 … 65, zeros into the two
    rows after it, zeros into the two rows before it. -/
def stores (x0 : Vec F S16x64x300 .f32) : List (View.Piece (Elt F) S16x68x300 .bf16) :=
  [⟨Rect.unit (s := S16x68x300) ![0, 2, 0] S16x64x300.size inb_S16x68x300_S16x64x300_0_2_0, k0_pay3 x0⟩,
   ⟨Rect.unit (s := S16x68x300) ![0, 66, 0] S16x2x300.size inb_S16x68x300_S16x2x300_0_66_0, k0_pay2⟩,
   ⟨Rect.unit (s := S16x68x300) ![0, 0, 0] S16x2x300.size inb_S16x68x300_S16x2x300_0_0_0, k0_pay1⟩]

/-- The scratch rows a rectangle reads after those stores. -/
def rowsAt (x0 : Vec F S16x64x300 .f32) (r : Rect S16x68x300) : r.shape.Idx → Elt F .bf16 :=
  fun j => View.canon (stores x0) (r.toLoadRect.idx j)

/-- The block the step writes back: the bias added to the accumulator after its five updates, each update reading the
    accumulator the previous one stored and the scratch rows the three stores left. -/
theorem out_eq (c : Dev nD) (i : grid0.Coords) (a1 : Memref sig .tc .vmem S16x64x300 .f32) (h1 : a1.IsWhole)
    (a2 : Memref sig .tc .vmem S5x300x512 .bf16) (h2 : a2.IsWhole) (a3 : Memref sig .tc .vmem S1x512 .f32) (h3 : a3.IsWhole)
    (a4 : Memref sig .tc .vmem S16x64x512 .f32) (h4 : a4.IsWhole) (a5 : Memref sig .tc .vmem S16x68x300 .bf16) (h5 : a5.IsWhole)
    (a6 : Memref sig .tc .vmem S16x64x512 .f32) (h6 : a6.IsWhole)
    (x0 : Vec F S16x64x300 .f32) (x1 : Vec F S5x300x512 .bf16) (x2 : Vec F S1x512 .f32) :
    out0_A_3 c i a1 h1 a2 h2 a3 h3 a4 h4 a5 h5 a6 h6 x0 x1 x2
      = k0_pay12
          (k0_pay11 (rowsAt x0 (Rect.unit (s := S16x68x300) ![0, 4, 0] S16x64x300.size inb_S16x68x300_S16x64x300_0_4_0)) (View.ld x1 (Rect.unit (s := S5x300x512) ![4, 0, 0] S1x300x512.size inb_S5x300x512_S1x300x512_4_0_0))
            (k0_pay10 (k0_pay9 (rowsAt x0 (Rect.unit (s := S16x68x300) ![0, 3, 0] S16x64x300.size inb_S16x68x300_S16x64x300_0_3_0))) (View.ld x1 (Rect.unit (s := S5x300x512) ![3, 0, 0] S1x300x512.size inb_S5x300x512_S1x300x512_3_0_0))
              (k0_pay8 (k0_pay3 x0) (View.ld x1 (Rect.unit (s := S5x300x512) ![2, 0, 0] S1x300x512.size inb_S5x300x512_S1x300x512_2_0_0))
                (k0_pay7 (rowsAt x0 (Rect.unit (s := S16x68x300) ![0, 1, 0] S16x64x300.size inb_S16x68x300_S16x64x300_0_1_0)) (View.ld x1 (Rect.unit (s := S5x300x512) ![1, 0, 0] S1x300x512.size inb_S5x300x512_S1x300x512_1_0_0))
                  (k0_pay6 (k0_pay5 (rowsAt x0 (Rect.unit (s := S16x68x300) ![0, 0, 0] S16x64x300.size inb_S16x68x300_S16x64x300_0_0_0)) (View.ld x1 (Rect.unit (s := S5x300x512) ![0, 0, 0] S1x300x512.size inb_S5x300x512_S1x300x512_0_0_0)) k0_pay4))))))
          x2 := by
  unfold out0_A_3
  rw [View.read_writes_eq_canon _ _ _ (cover0_A_3 c i a1 h1 a2 h2 a3 h3 a4 h4 a5 h5 a6 h6 x0 x1 x2)]
  unfold kernelRun0_A
  dsimp only
  sl_unfold_words
  rw [View.canon_unit_zero hz3]
  simp only [View.readCov_cons_toLoadRect, View.readAt_eq_ld, h1.read_unread, h2.read_unread, h3.read_unread,
    View.ld_unit_zero (S := S16x64x300) hz3, View.ld_unit_zero (S := S1x512) hz2]
  simp only [View.readCov_eq_canon']
  rfl

/-! ## The same term read at an index, at the ideal values -/

/-- The bf16 zero word is the real number zero. -/
theorem zero_bf16 : Ideal.ofBits .bf16 0x0000#16 = 0 := by simp [Ideal.ofBits, Ideal.ieee]

/-- The zero-padded input block as a function of the scratch array's index. -/
def padBlock (x0 : Vec Ideal S16x64x300 .f32) : S16x68x300.Idx → Elt Ideal .bf16 :=
  fun y => padded x0 (y 0) (y 1).val (y 2)

theorem padBlock_ix3 (x0 : Vec Ideal S16x64x300 .f32) (b : Fin 16) (j : Fin 68) (e : Fin 300) :
    padBlock x0 (ix3 b j e) = padded x0 b j.val e := rfl

/-- The newest store (rows 2 … 65) writes the padded block's rows there: the input block itself. -/
theorem store3_eq (x0 : Vec Ideal S16x64x300 .f32) (b : Fin 16) (l : Fin 64) (e : Fin 300) :
    k0_pay3 (F := Ideal) x0 (ix3 b l e) = padBlock x0 ((Rect.unit (s := S16x68x300) ![0, 2, 0] S16x64x300.size inb_S16x68x300_S16x64x300_0_2_0).emb (ix3 b l e)) := by
  have hl := l.isLt
  refine Eq.trans ?_ (congrArg (padBlock x0) (Cert.Lib.UnitRect.emb_ix3 (by omega) (by omega) (by omega) _ b l e)).symm
  rw [padBlock_ix3, padded_of_mem x0 _ _ _ (by show 2 ≤ 2 + l.val ∧ 2 + l.val < 64 + 2; omega)]
  refine (congrFun (shapeCast_self _ _) _).trans ?_
  exact congrArg x0 (funext fun a => Fin.ext (by
    match a with
    | ⟨0, _⟩ => show b.val = 0 + b.val; omega
    | ⟨1, _⟩ => show l.val = 2 + l.val - 2; omega
    | ⟨2, _⟩ => show e.val = 0 + e.val; omega))

/-- The second store (rows 66, 67) writes zeros, as the padded block has there. -/
theorem store2_eq (x0 : Vec Ideal S16x64x300 .f32) (b : Fin 16) (l : Fin 2) (e : Fin 300) :
    k0_pay2 (F := Ideal) (ix3 b l e) = padBlock x0 ((Rect.unit (s := S16x68x300) ![0, 66, 0] S16x2x300.size inb_S16x68x300_S16x2x300_0_66_0).emb (ix3 b l e)) := by
  have hl := l.isLt
  refine Eq.trans ?_ (congrArg (padBlock x0) (Cert.Lib.UnitRect.emb_ix3 (by omega) (by omega) (by omega) _ b l e)).symm
  rw [padBlock_ix3, padded_of_not_mem x0 _ _ _ (by show ¬(2 ≤ 66 + l.val ∧ 66 + l.val < 64 + 2); omega)]
  show shapeCast S16x2x300 (broadcast S16x2x300 (Scalar.ofBits (F := Ideal) .bf16 0x0000#16)) shapeCasts_S16x2x300_S16x2x300 (ix3 b l e) = 0
  rw [shapeCast_self]
  exact zero_bf16

/-- The first store (rows 0, 1) writes zeros, as the padded block has there. -/
theorem store1_eq (x0 : Vec Ideal S16x64x300 .f32) (b : Fin 16) (l : Fin 2) (e : Fin 300) :
    k0_pay1 (F := Ideal) (ix3 b l e) = padBlock x0 ((Rect.unit (s := S16x68x300) ![0, 0, 0] S16x2x300.size inb_S16x68x300_S16x2x300_0_0_0).emb (ix3 b l e)) := by
  have hl := l.isLt
  refine Eq.trans ?_ (congrArg (padBlock x0) (Cert.Lib.UnitRect.emb_ix3 (by omega) (by omega) (by omega) _ b l e)).symm
  rw [padBlock_ix3, padded_of_not_mem x0 _ _ _ (by show ¬(2 ≤ 0 + l.val ∧ 0 + l.val < 64 + 2); omega)]
  show shapeCast S16x2x300 (broadcast S16x2x300 (Scalar.ofBits (F := Ideal) .bf16 0x0000#16)) shapeCasts_S16x2x300_S16x2x300 (ix3 b l e) = 0
  rw [shapeCast_self]
  exact zero_bf16

/-- Every store writes the padded block on its own rows. -/
theorem stores_agree (x0 : Vec Ideal S16x64x300 .f32) :
    ∀ p ∈ stores (F := Ideal) x0, ∀ x : p.1.shape.Idx, p.2 x = padBlock x0 (p.1.emb x) := by
  intro p hp
  simp only [stores, List.mem_cons, List.not_mem_nil, or_false] at hp
  rcases hp with rfl | rfl | rfl
  · intro x
    obtain ⟨b, l, e, rfl⟩ : ∃ (b : Fin 16) (l : Fin 64) (e : Fin 300), x = ix3 b l e := ⟨x 0, x 1, x 2, eq_ix3 x⟩
    exact store3_eq x0 b l e
  · intro x
    obtain ⟨b, l, e, rfl⟩ : ∃ (b : Fin 16) (l : Fin 2) (e : Fin 300), x = ix3 b l e := ⟨x 0, x 1, x 2, eq_ix3 x⟩
    exact store2_eq x0 b l e
  · intro x
    obtain ⟨b, l, e, rfl⟩ : ∃ (b : Fin 16) (l : Fin 2) (e : Fin 300), x = ix3 b l e := ⟨x 0, x 1, x 2, eq_ix3 x⟩
    exact store1_eq x0 b l e

/-- The three stores cover the scratch array. -/
theorem stores_cover (x0 : Vec Ideal S16x64x300 .f32) (b : Fin 16) (j : Fin 68) (e : Fin 300) :
    ∃ p ∈ stores (F := Ideal) x0, (ix3 b j e : S16x68x300.Idx) ∈ p.1.set := by
  have hb := b.isLt
  have hj := j.isLt
  have he := e.isLt
  unfold stores
  by_cases h1 : j.val < 2
  · exact ⟨_, List.mem_cons_of_mem _ (List.mem_cons_of_mem _ List.mem_cons_self),
      Cert.Lib.UnitRect.mem_ix3 inb_S16x68x300_S16x2x300_0_0_0 b j e (by omega) (by omega) (by omega)⟩
  · by_cases h2 : j.val < 66
    · exact ⟨_, List.mem_cons_self, Cert.Lib.UnitRect.mem_ix3 inb_S16x68x300_S16x64x300_0_2_0 b j e (by omega) (by omega) (by omega)⟩
    · exact ⟨_, List.mem_cons_of_mem _ List.mem_cons_self,
        Cert.Lib.UnitRect.mem_ix3 inb_S16x68x300_S16x2x300_0_66_0 b j e (by omega) (by omega) (by omega)⟩

/-- Row `j` of the scratch array after the three stores is row `j` of the zero-padded input block. -/
theorem scratch_apply (x0 : Vec Ideal S16x64x300 .f32) (b : Fin 16) (j : Fin 68) (e : Fin 300) :
    View.canon (stores (F := Ideal) x0) (ix3 b j e) = padded x0 b j.val e :=
  View.canon_apply_of_pieces (padBlock x0) (stores x0) (stores_agree x0) (ix3 b j e) (stores_cover x0 b j e)

/-- The 64 scratch rows starting at row `o`, read at row `l`: padded row `l + o`. -/
theorem rowsAt_apply (x0 : Vec Ideal S16x64x300 .f32) (o : ℕ) (ho : o + 64 ≤ 68)
    (inb : ∀ a, (![0, o, 0] : Fin 3 → Nat) a + S16x64x300.size a ≤ S16x68x300.size a) (b : Fin 16) (l : Fin 64) (e : Fin 300) :
    rowsAt (F := Ideal) x0 (Rect.unit (s := S16x68x300) ![0, o, 0] S16x64x300.size inb) (ix3 b l e) = padded x0 b (l.val + o) e := by
  have hl := l.isLt
  show View.canon (stores (F := Ideal) x0) _ = _
  refine (congrArg (View.canon (stores (F := Ideal) x0))
    (Cert.Lib.UnitRect.idx_ix3 (by omega) (by omega) (by omega) inb b l e)).trans ?_
  refine (scratch_apply x0 _ _ _).trans ?_
  show padded x0 ⟨0 + b.val, _⟩ (o + l.val) ⟨0 + e.val, _⟩ = padded x0 b (l.val + o) e
  congr 1
  · exact Fin.ext (Nat.zero_add _)
  · exact Nat.add_comm _ _
  · exact Fin.ext (Nat.zero_add _)

/-- One update: the accumulator plus, at token `l` of sequence `b` and feature `f`, the product of the token's row of
    `z` with column `f` of the weight slab. -/
theorem update_apply (z : Vec Ideal S16x64x300 .bf16) (w : Vec Ideal S1x300x512 .bf16) (acc : FVec Ideal S16x64x512 .f32)
    (b : Fin 16) (l : Fin 64) (f : Fin 512) :
    k0_pay7 (F := Ideal) z w acc (ix3 b l f)
      = acc (ix3 b l f) + ∑ e : Fin 300, z (ix3 b l e) * w (ix3 (0 : Fin 1) e f) := by
  have hb := b.isLt
  have hl := l.isLt
  show shapeCast S16x64x512 (addf acc (shapeCast S16x64x512 (matmul dot_S1024x300_S300x512_S1024x512_1_0_0_1_n_n none
      (shapeCast S1024x300 z shapeCasts_S16x64x300_S1024x300) (shapeCast S300x512 w shapeCasts_S1x300x512_S300x512)
      (constant S1024x512 .f32 0x00000000#32)) shapeCasts_S1024x512_S16x64x512)) shapeCasts_S16x64x512_S16x64x512 (ix3 b l f) = _
  rw [shapeCast_self, addf_apply,
    shapeCast_nc_abc_apply _ _ (⟨b.val * 64 + l.val, by omega⟩ : Fin 1024) b l f rfl]
  refine congrArg (acc (ix3 b l f) + ·) ?_
  refine (Cert.PlainMatmul.matmul_zero_apply dot_S1024x300_S300x512_S1024x512_1_0_0_1_n_n_wf none _ _ _ f).trans ?_
  refine Finset.sum_congr rfl fun e _ => ?_
  rw [shapeCast_abc_nc_apply _ _ (⟨b.val * 64 + l.val, by omega⟩ : Fin 1024) b l e rfl, shapeCast_1ab_ab_apply]

/-- A block read of the weights through slab `i`'s rectangle is slab `i`. -/
theorem slab_apply (x1 : Vec Ideal S5x300x512 .bf16) (i : Fin 5)
    (inb : ∀ a, (![i.val, 0, 0] : Fin 3 → Nat) a + S1x300x512.size a ≤ S5x300x512.size a) (e : Fin 300) (f : Fin 512) :
    View.ld x1 (Rect.unit (s := S5x300x512) ![i.val, 0, 0] S1x300x512.size inb) (ix3 (0 : Fin 1) e f) = x1 (ix3 i e f) :=
  congrArg x1 (funext fun a => Fin.ext (by
    match a with
    | ⟨0, _⟩ => show i.val + 1 * 0 = i.val; omega
    | ⟨1, _⟩ => show 0 + 1 * e.val = e.val; omega
    | ⟨2, _⟩ => show 0 + 1 * f.val = f.val; omega))

/-! ## The block the step writes back -/

/-- The last operation adds the bias row to the accumulator. -/
theorem bias_apply (acc : FVec Ideal S16x64x512 .f32) (x2 : Vec Ideal S1x512 .f32) (b : Fin 16) (l : Fin 64) (f : Fin 512) :
    k0_pay12 (F := Ideal) acc x2 (ix3 b l f) = acc (ix3 b l f) + x2 (ix2 (0 : Fin 1) f) := by
  show addf acc (broadcastTo S16x64x512 (shapeCast S1x1x512 (shapeCast S1x512 x2 shapeCasts_S1x512_S1x512)
      shapeCasts_S1x512_S1x1x512) broadcasts_S1x1x512_S16x64x512) (ix3 b l f) = _
  rw [addf_apply, shapeCast_self, Cert.Lib.RowOverStack.apply]

/-- The cleared accumulator is zero. -/
theorem cleared_apply (b : Fin 16) (l : Fin 64) (f : Fin 512) : k0_pay4 (F := Ideal) (ix3 b l f) = 0 := by
  show shapeCast S16x64x512 (broadcast S16x64x512 (Scalar.ofBits (F := Ideal) .f32 0x00000000#32)) shapeCasts_S16x64x512_S16x64x512 (ix3 b l f) = 0
  rw [shapeCast_self]
  exact Ideal.ofBits_zero_f32

/-- The five updates are one function of (rows, slab, accumulator), whatever the statement each was printed from. -/
theorem update0_apply (z : Vec Ideal S16x64x300 .bf16) (w : Vec Ideal S1x300x512 .bf16) (acc : FVec Ideal S16x64x512 .f32)
    (b : Fin 16) (l : Fin 64) (f : Fin 512) :
    k0_pay6 (k0_pay5 (F := Ideal) z w acc) (ix3 b l f)
      = acc (ix3 b l f) + ∑ e : Fin 300, z (ix3 b l e) * w (ix3 (0 : Fin 1) e f) := update_apply z w acc b l f
theorem update2_apply (z : Vec Ideal S16x64x300 .bf16) (w : Vec Ideal S1x300x512 .bf16) (acc : FVec Ideal S16x64x512 .f32)
    (b : Fin 16) (l : Fin 64) (f : Fin 512) :
    k0_pay8 (F := Ideal) z w acc (ix3 b l f)
      = acc (ix3 b l f) + ∑ e : Fin 300, z (ix3 b l e) * w (ix3 (0 : Fin 1) e f) := update_apply z w acc b l f
theorem update3_apply (z : Vec Ideal S16x64x300 .bf16) (w : Vec Ideal S1x300x512 .bf16) (acc : FVec Ideal S16x64x512 .f32)
    (b : Fin 16) (l : Fin 64) (f : Fin 512) :
    k0_pay10 (F := Ideal) (k0_pay9 z) w acc (ix3 b l f)
      = acc (ix3 b l f) + ∑ e : Fin 300, z (ix3 b l e) * w (ix3 (0 : Fin 1) e f) := update_apply z w acc b l f
theorem update4_apply (z : Vec Ideal S16x64x300 .bf16) (w : Vec Ideal S1x300x512 .bf16) (acc : FVec Ideal S16x64x512 .f32)
    (b : Fin 16) (l : Fin 64) (f : Fin 512) :
    k0_pay11 (F := Ideal) z w acc (ix3 b l f)
      = acc (ix3 b l f) + ∑ e : Fin 300, z (ix3 b l e) * w (ix3 (0 : Fin 1) e f) := update_apply z w acc b l f

/-- The input block's own rows are the padded rows `2 … 65`: the third update reads them straight from the store. -/
theorem middle_apply (x0 : Vec Ideal S16x64x300 .f32) (b : Fin 16) (l : Fin 64) (e : Fin 300) :
    k0_pay3 (F := Ideal) x0 (ix3 b l e) = padded x0 b (l.val + 2) e := by
  have hl := l.isLt
  rw [padded_of_mem x0 b (l.val + 2) e (by omega)]
  refine (congrFun (shapeCast_self _ _) _).trans ?_
  exact congrArg x0 (funext fun a => Fin.ext (by
    match a with
    | ⟨0, _⟩ => rfl
    | ⟨1, _⟩ => show l.val = l.val + 2 - 2; omega
    | ⟨2, _⟩ => rfl))

/-- THE STEP'S VALUE: read at token `l` of the tile's sequence `b` and feature `f`, the block written back is the
    slab-by-slab accumulation over the zero-padded input block, plus the bias. -/
theorem out_apply (c : Dev nD) (i : grid0.Coords) (a1 : Memref sig .tc .vmem S16x64x300 .f32) (h1 : a1.IsWhole)
    (a2 : Memref sig .tc .vmem S5x300x512 .bf16) (h2 : a2.IsWhole) (a3 : Memref sig .tc .vmem S1x512 .f32) (h3 : a3.IsWhole)
    (a4 : Memref sig .tc .vmem S16x64x512 .f32) (h4 : a4.IsWhole) (a5 : Memref sig .tc .vmem S16x68x300 .bf16) (h5 : a5.IsWhole)
    (a6 : Memref sig .tc .vmem S16x64x512 .f32) (h6 : a6.IsWhole)
    (x0 : Vec Ideal S16x64x300 .f32) (x1 : Vec Ideal S5x300x512 .bf16) (x2 : Vec Ideal S1x512 .f32)
    (b : Fin 16) (l : Fin 64) (f : Fin 512) :
    out0_A_3 (F := Ideal) c i a1 h1 a2 h2 a3 h3 a4 h4 a5 h5 a6 h6 x0 x1 x2 (ix3 b l f) = stepValue x0 x1 x2 b l f := by
  have hl := l.isLt
  rw [out_eq]
  refine (bias_apply _ x2 b l f).trans ?_
  unfold stepValue
  refine congrArg (· + x2 (ix2 (0 : Fin 1) f)) ?_
  have r0 : ∀ e, rowsAt (F := Ideal) x0 (Rect.unit (s := S16x68x300) ![0, 0, 0] S16x64x300.size inb_S16x68x300_S16x64x300_0_0_0) (ix3 b l e) = padded x0 b (l.val + 0) e :=
    fun e => rowsAt_apply x0 0 (by omega) _ b l e
  have r1 : ∀ e, rowsAt (F := Ideal) x0 (Rect.unit (s := S16x68x300) ![0, 1, 0] S16x64x300.size inb_S16x68x300_S16x64x300_0_1_0) (ix3 b l e) = padded x0 b (l.val + 1) e :=
    fun e => rowsAt_apply x0 1 (by omega) _ b l e
  have r3 : ∀ e, rowsAt (F := Ideal) x0 (Rect.unit (s := S16x68x300) ![0, 3, 0] S16x64x300.size inb_S16x68x300_S16x64x300_0_3_0) (ix3 b l e) = padded x0 b (l.val + 3) e :=
    fun e => rowsAt_apply x0 3 (by omega) _ b l e
  have r4 : ∀ e, rowsAt (F := Ideal) x0 (Rect.unit (s := S16x68x300) ![0, 4, 0] S16x64x300.size inb_S16x68x300_S16x64x300_0_4_0) (ix3 b l e) = padded x0 b (l.val + 4) e :=
    fun e => rowsAt_apply x0 4 (by omega) _ b l e
  have w0 : ∀ e, View.ld x1 (Rect.unit (s := S5x300x512) ![0, 0, 0] S1x300x512.size inb_S5x300x512_S1x300x512_0_0_0) (ix3 (0 : Fin 1) e f) = x1 (ix3 (0 : Fin 5) e f) := fun e => slab_apply x1 0 _ e f
  have w1 : ∀ e, View.ld x1 (Rect.unit (s := S5x300x512) ![1, 0, 0] S1x300x512.size inb_S5x300x512_S1x300x512_1_0_0) (ix3 (0 : Fin 1) e f) = x1 (ix3 (1 : Fin 5) e f) := fun e => slab_apply x1 1 _ e f
  have w2 : ∀ e, View.ld x1 (Rect.unit (s := S5x300x512) ![2, 0, 0] S1x300x512.size inb_S5x300x512_S1x300x512_2_0_0) (ix3 (0 : Fin 1) e f) = x1 (ix3 (2 : Fin 5) e f) := fun e => slab_apply x1 2 _ e f
  have w3 : ∀ e, View.ld x1 (Rect.unit (s := S5x300x512) ![3, 0, 0] S1x300x512.size inb_S5x300x512_S1x300x512_3_0_0) (ix3 (0 : Fin 1) e f) = x1 (ix3 (3 : Fin 5) e f) := fun e => slab_apply x1 3 _ e f
  have w4 : ∀ e, View.ld x1 (Rect.unit (s := S5x300x512) ![4, 0, 0] S1x300x512.size inb_S5x300x512_S1x300x512_4_0_0) (ix3 (0 : Fin 1) e f) = x1 (ix3 (4 : Fin 5) e f) := fun e => slab_apply x1 4 _ e f
  rw [update4_apply, update3_apply, update2_apply, update_apply, update0_apply, cleared_apply]
  simp only [r0, r1, r3, r4, middle_apply, w0, w1, w2, w3, w4]

end Cert.KernelIdeal.StepQ

end
-- ==== Proof.TilesQ.lean ====
/-
  From one grid step to the whole array: the question branch's launch.

  The launch runs 16 grid steps; step t works on sequences 16·t … 16·t + 15 and writes back that batch tile of the
  result array, whole in the other two axes; the weights and the bias row are the same whole arrays at every step.
  Each step's block is the slab-by-slab accumulation over its own tile, padding looks at one sequence only, and the 16
  tiles cover the batch axis: so after the launch the result array holds that accumulation of the whole input array.
-/
import proofs.«123280_j53687091200212_2_alg».proof.Proof.StepQ
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.TilesQ

open Cert.KernelIdeal Cert.KernelIdeal.Gen Cert.ContextConv

-- the buffer contents the launch is entered with
variable (V : (c : Dev nD) → (b : Ref sig .tc) → Buf (Elt Ideal) ((c : Thread nD τ).loc b))

/-- What the launch leaves in its result array, as one function of the three arrays it reads. -/
def whole (X : S256x64x300.Idx → EReal) (w : S5x300x512.Idx → EReal) (brow : S1x512.Idx → EReal) : S256x64x512.Idx → EReal :=
  fun i => stepValue X w brow (i 0) (i 1) (i 2)

/-- The printed index maps over the grid: the input and the output move one batch tile per step, the weights and the
    bias stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Step `t`'s input block is sequences `16·t …` of the input array. -/
theorem x_block (c : Dev nD) (t : Fin cfg0.N) (b : Fin 16) (l : Fin 64) (e : Fin 300) :
    (iblk0 V c 0 t : S16x64x300.Idx → EReal) (ix3 b l e)
      = (V c main_arg0 : S256x64x300.Idx → EReal) (ix3 ⟨16 * t.val + b.val, by
          have hN : cfg0.N = 16 := N_0
          have := t.isLt; have := b.isLt; omega⟩ l e) := by
  obtain ⟨e0, e1, e2, -⟩ := idx_facts t
  unfold iblk0
  rw [View.read_apply]
  show V c main_arg0 (((cfg0.win 0).blk t).view.emb (ix3 b l e)) = _
  refine congrArg (V c main_arg0) (funext fun a => Fin.ext ?_)
  match a with
  | ⟨0, _⟩ => show win0_0.index t (0 : Fin 3) * 16 + 1 * b.val = 16 * t.val + b.val; rw [e0]; omega
  | ⟨1, _⟩ => show win0_0.index t (1 : Fin 3) * 64 + 1 * l.val = l.val; rw [e1]; omega
  | ⟨2, _⟩ => show win0_0.index t (2 : Fin 3) * 300 + 1 * e.val = e.val; rw [e2]; omega

/-- Every step's weight block is the whole weight array. -/
theorem w_block (c : Dev nD) (t : Fin cfg0.N) : (iblk0 V c 1 t : S5x300x512.Idx → EReal) = V c main_v1 := by
  obtain ⟨-, -, -, e3, e4, e5, -⟩ := idx_facts t
  funext y
  unfold iblk0
  rw [View.read_apply]
  show V c main_v1 (((cfg0.win 1).blk t).view.emb y) = V c main_v1 y
  refine congrArg (V c main_v1) (funext fun a => Fin.ext ?_)
  match a with
  | ⟨0, _⟩ => show win0_1.index t (0 : Fin 3) * 5 + 1 * (y 0).val = (y 0).val; rw [e3]; omega
  | ⟨1, _⟩ => show win0_1.index t (1 : Fin 3) * 300 + 1 * (y 1).val = (y 1).val; rw [e4]; omega
  | ⟨2, _⟩ => show win0_1.index t (2 : Fin 3) * 512 + 1 * (y 2).val = (y 2).val; rw [e5]; omega

/-- Every step's bias block is the whole bias row. -/
theorem b_block (c : Dev nD) (t : Fin cfg0.N) : (iblk0 V c 2 t : S1x512.Idx → EReal) = V c main_v2 := by
  obtain ⟨-, -, -, -, -, -, e6, e7, -⟩ := idx_facts t
  funext y
  unfold iblk0
  rw [View.read_apply]
  show V c main_v2 (((cfg0.win 2).blk t).view.emb y) = V c main_v2 y
  refine congrArg (V c main_v2) (funext fun a => Fin.ext ?_)
  match a with
  | ⟨0, _⟩ => show win0_2.index t (0 : Fin 2) * 1 + 1 * (y 0).val = (y 0).val; rw [e6]; omega
  | ⟨1, _⟩ => show win0_2.index t (1 : Fin 2) * 512 + 1 * (y 1).val = (y 1).val; rw [e7]; omega

/-- WHAT STEP `t` WRITES BACK is tile `t` of `whole` of the arrays as the launch finds them. -/
theorem flushed_eq (c : Dev nD) (t : Fin cfg0.N) :
    (dat0 V c).flushed 3 t
      = ((cfg0.win 3).blk t).view.read (Elt Ideal) (whole (V c main_arg0) (V c main_v1) (V c main_v2)) := by
  have hN : cfg0.N = 16 := N_0
  have ht := t.isLt
  obtain ⟨-, -, -, -, -, -, -, -, e8, e9, e10⟩ := idx_facts t
  show (cfg0.win 3).cut (grid0.coords t) ((dat0 V c).after 3 t) = _
  rw [after0_3]
  unfold outsAt0
  funext j
  obtain ⟨b, l, f, rfl⟩ : ∃ (b : Fin 16) (l : Fin 64) (f : Fin 512), j = ix3 b l f := ⟨j 0, j 1, j 2, eq_ix3 j⟩
  have hb := b.isLt
  rw [View.read_apply]
  refine (StepQ.out_apply c (grid0.coords t) (ms0_0 t) (hs0_0 t) (ms0_1 t) (hs0_1 t) (ms0_2 t) (hs0_2 t) (ms0_3 t)
    (hs0_3 t) scM0_0 (Memref.isWhole_whole _) scM0_1 (Memref.isWhole_whole _) (iblk0 V c 0 t) (iblk0 V c 1 t) (iblk0 V c 2 t)
    b l f).trans ?_
  have ey : ((cfg0.win 3).blk t).view.emb (ix3 b l f)
      = (ix3 (⟨16 * t.val + b.val, by omega⟩ : Fin 256) l f : S256x64x512.Idx) :=
    funext fun a => Fin.ext (by
      match a with
      | ⟨0, _⟩ => show win0_3.index t (0 : Fin 3) * 16 + 1 * b.val = 16 * t.val + b.val; rw [e8]; omega
      | ⟨1, _⟩ => show win0_3.index t (1 : Fin 3) * 64 + 1 * l.val = l.val; rw [e9]; omega
      | ⟨2, _⟩ => show win0_3.index t (2 : Fin 3) * 512 + 1 * f.val = f.val; rw [e10]; omega)
  rw [ey, w_block V c t, b_block V c t]
  show stepValue _ _ _ b l f = stepValue _ _ _ (⟨16 * t.val + b.val, _⟩ : Fin 256) l f
  exact stepValue_congr_row _ _ _ _ b _ (fun l e => x_block V c t b l e) l f

/-- An index of the result array is in step `t`'s tile iff each coordinate is in the tile's range on its axis. -/
theorem mem_blk (t : Fin cfg0.N) (i : S256x64x512.Idx) :
    i ∈ ((cfg0.win 3).blk t).view.set
      ↔ ∀ a : Fin 3, win0_3.index t a * S16x64x512.size a ≤ (i a).val ∧ (i a).val < win0_3.index t a * S16x64x512.size a + S16x64x512.size a := by
  show i ∈ ((View.whole main_v3).slice (win0_3.rect t)).set ↔ _
  rw [View.set_slice_whole, Rect.mem_set_unit]
  exact Iff.rfl

/-- THE RESULT ARRAY after the launch: the tiles cover it (sequence `s` is in tile `s / 16`), so it holds `whole`. -/
theorem final (c : Dev nD) :
    (dat0 V c).arrAt 3 cfg0.N = whole (V c main_arg0) (V c main_v1) (V c main_v2) :=
  (dat0 V c).arrAt_eq_of_cover 3 (whole (V c main_arg0) (V c main_v1) (V c main_v2)) (fun t _ => flushed_eq V c t) fun i => by
    have hN : cfg0.N = 16 := N_0
    have hi0 : (i 0).val < 256 := (i 0).isLt
    have hi1 : (i 1).val < 64 := (i 1).isLt
    have hi2 : (i 2).val < 512 := (i 2).isLt
    obtain ⟨-, -, -, -, -, -, -, -, e8, e9, e10⟩ := idx_facts (⟨(i 0).val / 16, by rw [hN]; omega⟩ : Fin cfg0.N)
    refine ⟨⟨(i 0).val / 16, by rw [hN]; omega⟩, flush0_3 _, ?_⟩
    rw [mem_blk]
    intro a
    match a with
    | ⟨0, _⟩ =>
      show win0_3.index _ (0 : Fin 3) * 16 ≤ (i 0).val ∧ (i 0).val < win0_3.index _ (0 : Fin 3) * 16 + 16
      rw [e8]
      show (i 0).val / 16 * 16 ≤ (i 0).val ∧ (i 0).val < (i 0).val / 16 * 16 + 16
      omega
    | ⟨1, _⟩ =>
      show win0_3.index _ (1 : Fin 3) * 64 ≤ (i 1).val ∧ (i 1).val < win0_3.index _ (1 : Fin 3) * 64 + 64
      rw [e9]
      omega
    | ⟨2, _⟩ =>
      show win0_3.index _ (2 : Fin 3) * 512 ≤ (i 2).val ∧ (i 2).val < win0_3.index _ (2 : Fin 3) * 512 + 512
      rw [e10]
      omega

end Cert.KernelIdeal.TilesQ

end
-- ==== Proof.StepA.lean ====
/-
  One grid step of the answer branch, read as a value.

  One grid step works on 8 whole sequences of 256 tokens. It builds the zero-padded sequences in a scratch array of
  260 rows per sequence (rows 2 … 257 the step's input block, rows 0, 1, 258, 259 zero), clears an accumulator, and five
  times adds to it the product of the 256 scratch rows starting at row i (i = 0 … 4) with slab i of the weights; last it
  adds the bias row and swaps the token and feature axes. Read at token l of sequence b and feature f the block it writes back is

      ((((0 + P₀) + P₁) + P₂) + P₃) + P₄ + bias[f],   Pᵢ = Σ_e pad(x)[b, l + i, e] · w[i, e, f].
-/
import proofs.«123280_j53687091200212_2_alg».proof.Proof.Gen.KernelIdeal.Frame
import proofs.«123280_j53687091200212_2_alg».proof.Proof.ConvLaw
import proofs.«123280_j53687091200212_2_alg».proof.Proof.LibPlainMatmul
import proofs.«123280_j53687091200212_2_alg».proof.Proof.LibOuterSumLayout
import proofs.«123280_j53687091200212_2_alg».proof.Proof.LibUnitRect
import proofs.«123280_j53687091200212_2_alg».proof.Proof.LibRowOverStack
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx

namespace Cert.KernelIdeal.StepA

open Cert.KernelIdeal Cert.KernelIdeal.Gen Cert.ContextConv

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the step leaves in its output block, as one pure term -/

/-- The scratch array's three stores, the last first: the input block (cast) into rows 2 … 257, zeros into the two
    rows after it, zeros into the two rows before it. -/
def stores (x0 : Vec F S8x256x300 .f32) : List (View.Piece (Elt F) S8x260x300 .bf16) :=
  [⟨Rect.unit (s := S8x260x300) ![0, 2, 0] S8x256x300.size inb_S8x260x300_S8x256x300_0_2_0, k1_pay3 x0⟩,
   ⟨Rect.unit (s := S8x260x300) ![0, 258, 0] S8x2x300.size inb_S8x260x300_S8x2x300_0_258_0, k1_pay2⟩,
   ⟨Rect.unit (s := S8x260x300) ![0, 0, 0] S8x2x300.size inb_S8x260x300_S8x2x300_0_0_0, k1_pay1⟩]

/-- The scratch rows a rectangle reads after those stores. -/
def rowsAt (x0 : Vec F S8x256x300 .f32) (r : Rect S8x260x300) : r.shape.Idx → Elt F .bf16 :=
  fun j => View.canon (stores x0) (r.toLoadRect.idx j)

/-- The block the step writes back: the bias added to the accumulator after its five updates, each update reading the
    accumulator the previous one stored and the scratch rows the three stores left. -/
theorem out_eq (c : Dev nD) (i : grid1.Coords) (a1 : Memref sig .tc .vmem S8x256x300 .f32) (h1 : a1.IsWhole)
    (a2 : Memref sig .tc .vmem S5x300x512 .bf16) (h2 : a2.IsWhole) (a3 : Memref sig .tc .vmem S1x512 .f32) (h3 : a3.IsWhole)
    (a4 : Memref sig .tc .vmem S8x512x256 .f32) (h4 : a4.IsWhole) (a5 : Memref sig .tc .vmem S8x260x300 .bf16) (h5 : a5.IsWhole)
    (a6 : Memref sig .tc .vmem S8x256x512 .f32) (h6 : a6.IsWhole)
    (x0 : Vec F S8x256x300 .f32) (x1 : Vec F S5x300x512 .bf16) (x2 : Vec F S1x512 .f32) :
    out1_A_3 c i a1 h1 a2 h2 a3 h3 a4 h4 a5 h5 a6 h6 x0 x1 x2
      = k1_pay12
          (k1_pay11 (rowsAt x0 (Rect.unit (s := S8x260x300) ![0, 4, 0] S8x256x300.size inb_S8x260x300_S8x256x300_0_4_0)) (View.ld x1 (Rect.unit (s := S5x300x512) ![4, 0, 0] S1x300x512.size inb_S5x300x512_S1x300x512_4_0_0))
            (k1_pay10 (k1_pay9 (rowsAt x0 (Rect.unit (s := S8x260x300) ![0, 3, 0] S8x256x300.size inb_S8x260x300_S8x256x300_0_3_0))) (View.ld x1 (Rect.unit (s := S5x300x512) ![3, 0, 0] S1x300x512.size inb_S5x300x512_S1x300x512_3_0_0))
              (k1_pay8 (k1_pay3 x0) (View.ld x1 (Rect.unit (s := S5x300x512) ![2, 0, 0] S1x300x512.size inb_S5x300x512_S1x300x512_2_0_0))
                (k1_pay7 (rowsAt x0 (Rect.unit (s := S8x260x300) ![0, 1, 0] S8x256x300.size inb_S8x260x300_S8x256x300_0_1_0)) (View.ld x1 (Rect.unit (s := S5x300x512) ![1, 0, 0] S1x300x512.size inb_S5x300x512_S1x300x512_1_0_0))
                  (k1_pay6 (k1_pay5 (rowsAt x0 (Rect.unit (s := S8x260x300) ![0, 0, 0] S8x256x300.size inb_S8x260x300_S8x256x300_0_0_0)) (View.ld x1 (Rect.unit (s := S5x300x512) ![0, 0, 0] S1x300x512.size inb_S5x300x512_S1x300x512_0_0_0)) k1_pay4))))))
          x2 := by
  unfold out1_A_3
  rw [View.read_writes_eq_canon _ _ _ (cover1_A_3 c i a1 h1 a2 h2 a3 h3 a4 h4 a5 h5 a6 h6 x0 x1 x2)]
  unfold kernelRun1_A
  dsimp only
  sl_unfold_words
  rw [View.canon_unit_zero hz3]
  simp only [View.readCov_cons_toLoadRect, View.readAt_eq_ld, h1.read_unread, h2.read_unread, h3.read_unread,
    View.ld_unit_zero (S := S8x256x300) hz3, View.ld_unit_zero (S := S1x512) hz2]
  simp only [View.readCov_eq_canon']
  rfl

/-! ## The same term read at an index, at the ideal values -/

/-- The bf16 zero word is the real number zero. -/
theorem zero_bf16 : Ideal.ofBits .bf16 0x0000#16 = 0 := by simp [Ideal.ofBits, Ideal.ieee]

/-- The zero-padded input block as a function of the scratch array's index. -/
def padBlock (x0 : Vec Ideal S8x256x300 .f32) : S8x260x300.Idx → Elt Ideal .bf16 :=
  fun y => padded x0 (y 0) (y 1).val (y 2)

theorem padBlock_ix3 (x0 : Vec Ideal S8x256x300 .f32) (b : Fin 8) (j : Fin 260) (e : Fin 300) :
    padBlock x0 (ix3 b j e) = padded x0 b j.val e := rfl

/-- The newest store (rows 2 … 257) writes the padded block's rows there: the input block itself. -/
theorem store3_eq (x0 : Vec Ideal S8x256x300 .f32) (b : Fin 8) (l : Fin 256) (e : Fin 300) :
    k1_pay3 (F := Ideal) x0 (ix3 b l e) = padBlock x0 ((Rect.unit (s := S8x260x300) ![0, 2, 0] S8x256x300.size inb_S8x260x300_S8x256x300_0_2_0).emb (ix3 b l e)) := by
  have hl := l.isLt
  refine Eq.trans ?_ (congrArg (padBlock x0) (Cert.Lib.UnitRect.emb_ix3 (by omega) (by omega) (by omega) _ b l e)).symm
  rw [padBlock_ix3, padded_of_mem x0 _ _ _ (by show 2 ≤ 2 + l.val ∧ 2 + l.val < 256 + 2; omega)]
  refine (congrFun (shapeCast_self _ _) _).trans ?_
  exact congrArg x0 (funext fun a => Fin.ext (by
    match a with
    | ⟨0, _⟩ => show b.val = 0 + b.val; omega
    | ⟨1, _⟩ => show l.val = 2 + l.val - 2; omega
    | ⟨2, _⟩ => show e.val = 0 + e.val; omega))

/-- The second store (rows 258, 259) writes zeros, as the padded block has there. -/
theorem store2_eq (x0 : Vec Ideal S8x256x300 .f32) (b : Fin 8) (l : Fin 2) (e : Fin 300) :
    k1_pay2 (F := Ideal) (ix3 b l e) = padBlock x0 ((Rect.unit (s := S8x260x300) ![0, 258, 0] S8x2x300.size inb_S8x260x300_S8x2x300_0_258_0).emb (ix3 b l e)) := by
  have hl := l.isLt
  refine Eq.trans ?_ (congrArg (padBlock x0) (Cert.Lib.UnitRect.emb_ix3 (by omega) (by omega) (by omega) _ b l e)).symm
  rw [padBlock_ix3, padded_of_not_mem x0 _ _ _ (by show ¬(2 ≤ 258 + l.val ∧ 258 + l.val < 256 + 2); omega)]
  show shapeCast S8x2x300 (broadcast S8x2x300 (Scalar.ofBits (F := Ideal) .bf16 0x0000#16)) shapeCasts_S8x2x300_S8x2x300 (ix3 b l e) = 0
  rw [shapeCast_self]
  exact zero_bf16

/-- The first store (rows 0, 1) writes zeros, as the padded block has there. -/
theorem store1_eq (x0 : Vec Ideal S8x256x300 .f32) (b : Fin 8) (l : Fin 2) (e : Fin 300) :
    k1_pay1 (F := Ideal) (ix3 b l e) = padBlock x0 ((Rect.unit (s := S8x260x300) ![0, 0, 0] S8x2x300.size inb_S8x260x300_S8x2x300_0_0_0).emb (ix3 b l e)) := by
  have hl := l.isLt
  refine Eq.trans ?_ (congrArg (padBlock x0) (Cert.Lib.UnitRect.emb_ix3 (by omega) (by omega) (by omega) _ b l e)).symm
  rw [padBlock_ix3, padded_of_not_mem x0 _ _ _ (by show ¬(2 ≤ 0 + l.val ∧ 0 + l.val < 256 + 2); omega)]
  show shapeCast S8x2x300 (broadcast S8x2x300 (Scalar.ofBits (F := Ideal) .bf16 0x0000#16)) shapeCasts_S8x2x300_S8x2x300 (ix3 b l e) = 0
  rw [shapeCast_self]
  exact zero_bf16

/-- Every store writes the padded block on its own rows. -/
theorem stores_agree (x0 : Vec Ideal S8x256x300 .f32) :
    ∀ p ∈ stores (F := Ideal) x0, ∀ x : p.1.shape.Idx, p.2 x = padBlock x0 (p.1.emb x) := by
  intro p hp
  simp only [stores, List.mem_cons, List.not_mem_nil, or_false] at hp
  rcases hp with rfl | rfl | rfl
  · intro x
    obtain ⟨b, l, e, rfl⟩ : ∃ (b : Fin 8) (l : Fin 256) (e : Fin 300), x = ix3 b l e := ⟨x 0, x 1, x 2, eq_ix3 x⟩
    exact store3_eq x0 b l e
  · intro x
    obtain ⟨b, l, e, rfl⟩ : ∃ (b : Fin 8) (l : Fin 2) (e : Fin 300), x = ix3 b l e := ⟨x 0, x 1, x 2, eq_ix3 x⟩
    exact store2_eq x0 b l e
  · intro x
    obtain ⟨b, l, e, rfl⟩ : ∃ (b : Fin 8) (l : Fin 2) (e : Fin 300), x = ix3 b l e := ⟨x 0, x 1, x 2, eq_ix3 x⟩
    exact store1_eq x0 b l e

/-- The three stores cover the scratch array. -/
theorem stores_cover (x0 : Vec Ideal S8x256x300 .f32) (b : Fin 8) (j : Fin 260) (e : Fin 300) :
    ∃ p ∈ stores (F := Ideal) x0, (ix3 b j e : S8x260x300.Idx) ∈ p.1.set := by
  have hb := b.isLt
  have hj := j.isLt
  have he := e.isLt
  unfold stores
  by_cases h1 : j.val < 2
  · exact ⟨_, List.mem_cons_of_mem _ (List.mem_cons_of_mem _ List.mem_cons_self),
      Cert.Lib.UnitRect.mem_ix3 inb_S8x260x300_S8x2x300_0_0_0 b j e (by omega) (by omega) (by omega)⟩
  · by_cases h2 : j.val < 258
    · exact ⟨_, List.mem_cons_self, Cert.Lib.UnitRect.mem_ix3 inb_S8x260x300_S8x256x300_0_2_0 b j e (by omega) (by omega) (by omega)⟩
    · exact ⟨_, List.mem_cons_of_mem _ List.mem_cons_self,
        Cert.Lib.UnitRect.mem_ix3 inb_S8x260x300_S8x2x300_0_258_0 b j e (by omega) (by omega) (by omega)⟩

/-- Row `j` of the scratch array after the three stores is row `j` of the zero-padded input block. -/
theorem scratch_apply (x0 : Vec Ideal S8x256x300 .f32) (b : Fin 8) (j : Fin 260) (e : Fin 300) :
    View.canon (stores (F := Ideal) x0) (ix3 b j e) = padded x0 b j.val e :=
  View.canon_apply_of_pieces (padBlock x0) (stores x0) (stores_agree x0) (ix3 b j e) (stores_cover x0 b j e)

/-- The 256 scratch rows starting at row `o`, read at row `l`: padded row `l + o`. -/
theorem rowsAt_apply (x0 : Vec Ideal S8x256x300 .f32) (o : ℕ) (ho : o + 256 ≤ 260)
    (inb : ∀ a, (![0, o, 0] : Fin 3 → Nat) a + S8x256x300.size a ≤ S8x260x300.size a) (b : Fin 8) (l : Fin 256) (e : Fin 300) :
    rowsAt (F := Ideal) x0 (Rect.unit (s := S8x260x300) ![0, o, 0] S8x256x300.size inb) (ix3 b l e) = padded x0 b (l.val + o) e := by
  have hl := l.isLt
  show View.canon (stores (F := Ideal) x0) _ = _
  refine (congrArg (View.canon (stores (F := Ideal) x0))
    (Cert.Lib.UnitRect.idx_ix3 (by omega) (by omega) (by omega) inb b l e)).trans ?_
  refine (scratch_apply x0 _ _ _).trans ?_
  show padded x0 ⟨0 + b.val, _⟩ (o + l.val) ⟨0 + e.val, _⟩ = padded x0 b (l.val + o) e
  congr 1
  · exact Fin.ext (Nat.zero_add _)
  · exact Nat.add_comm _ _
  · exact Fin.ext (Nat.zero_add _)

/-- One update: the accumulator plus, at token `l` of sequence `b` and feature `f`, the product of the token's row of
    `z` with column `f` of the weight slab. -/
theorem update_apply (z : Vec Ideal S8x256x300 .bf16) (w : Vec Ideal S1x300x512 .bf16) (acc : FVec Ideal S8x256x512 .f32)
    (b : Fin 8) (l : Fin 256) (f : Fin 512) :
    k1_pay7 (F := Ideal) z w acc (ix3 b l f)
      = acc (ix3 b l f) + ∑ e : Fin 300, z (ix3 b l e) * w (ix3 (0 : Fin 1) e f) := by
  have hb := b.isLt
  have hl := l.isLt
  show shapeCast S8x256x512 (addf acc (shapeCast S8x256x512 (matmul dot_S2048x300_S300x512_S2048x512_1_0_0_1_n_n none
      (shapeCast S2048x300 z shapeCasts_S8x256x300_S2048x300) (shapeCast S300x512 w shapeCasts_S1x300x512_S300x512)
      (constant S2048x512 .f32 0x00000000#32)) shapeCasts_S2048x512_S8x256x512)) shapeCasts_S8x256x512_S8x256x512 (ix3 b l f) = _
  rw [shapeCast_self, addf_apply,
    shapeCast_nc_abc_apply _ _ (⟨b.val * 256 + l.val, by omega⟩ : Fin 2048) b l f rfl]
  refine congrArg (acc (ix3 b l f) + ·) ?_
  refine (Cert.PlainMatmul.matmul_zero_apply dot_S2048x300_S300x512_S2048x512_1_0_0_1_n_n_wf none _ _ _ f).trans ?_
  refine Finset.sum_congr rfl fun e _ => ?_
  rw [shapeCast_abc_nc_apply _ _ (⟨b.val * 256 + l.val, by omega⟩ : Fin 2048) b l e rfl, shapeCast_1ab_ab_apply]

/-- A block read of the weights through slab `i`'s rectangle is slab `i`. -/
theorem slab_apply (x1 : Vec Ideal S5x300x512 .bf16) (i : Fin 5)
    (inb : ∀ a, (![i.val, 0, 0] : Fin 3 → Nat) a + S1x300x512.size a ≤ S5x300x512.size a) (e : Fin 300) (f : Fin 512) :
    View.ld x1 (Rect.unit (s := S5x300x512) ![i.val, 0, 0] S1x300x512.size inb) (ix3 (0 : Fin 1) e f) = x1 (ix3 i e f) :=
  congrArg x1 (funext fun a => Fin.ext (by
    match a with
    | ⟨0, _⟩ => show i.val + 1 * 0 = i.val; omega
    | ⟨1, _⟩ => show 0 + 1 * e.val = e.val; omega
    | ⟨2, _⟩ => show 0 + 1 * f.val = f.val; omega))

/-! ## The block the step writes back -/

/-- The last operation adds the bias row to the accumulator and swaps the token and feature axes. -/
theorem bias_apply (acc : FVec Ideal S8x256x512 .f32) (x2 : Vec Ideal S1x512 .f32) (b : Fin 8) (l : Fin 256) (f : Fin 512) :
    k1_pay12 (F := Ideal) acc x2 (ix3 b f l) = acc (ix3 b l f) + x2 (ix2 (0 : Fin 1) f) := by
  show transpose S8x512x256 [0, 2, 1] (addf acc (broadcastTo S8x256x512 (shapeCast S1x1x512 (shapeCast S1x512 x2 shapeCasts_S1x512_S1x512)
      shapeCasts_S1x512_S1x1x512) broadcasts_S1x1x512_S8x256x512)) transposes_S8x256x512_p0_2_1_S8x512x256 (ix3 b f l) = _
  rw [transpose_ix3_021_apply, addf_apply, shapeCast_self, Cert.Lib.RowOverStack.apply]

/-- The cleared accumulator is zero. -/
theorem cleared_apply (b : Fin 8) (l : Fin 256) (f : Fin 512) : k1_pay4 (F := Ideal) (ix3 b l f) = 0 := by
  show shapeCast S8x256x512 (broadcast S8x256x512 (Scalar.ofBits (F := Ideal) .f32 0x00000000#32)) shapeCasts_S8x256x512_S8x256x512 (ix3 b l f) = 0
  rw [shapeCast_self]
  exact Ideal.ofBits_zero_f32

/-- The five updates are one function of (rows, slab, accumulator), whatever the statement each was printed from. -/
theorem update0_apply (z : Vec Ideal S8x256x300 .bf16) (w : Vec Ideal S1x300x512 .bf16) (acc : FVec Ideal S8x256x512 .f32)
    (b : Fin 8) (l : Fin 256) (f : Fin 512) :
    k1_pay6 (k1_pay5 (F := Ideal) z w acc) (ix3 b l f)
      = acc (ix3 b l f) + ∑ e : Fin 300, z (ix3 b l e) * w (ix3 (0 : Fin 1) e f) := update_apply z w acc b l f
theorem update2_apply (z : Vec Ideal S8x256x300 .bf16) (w : Vec Ideal S1x300x512 .bf16) (acc : FVec Ideal S8x256x512 .f32)
    (b : Fin 8) (l : Fin 256) (f : Fin 512) :
    k1_pay8 (F := Ideal) z w acc (ix3 b l f)
      = acc (ix3 b l f) + ∑ e : Fin 300, z (ix3 b l e) * w (ix3 (0 : Fin 1) e f) := update_apply z w acc b l f
theorem update3_apply (z : Vec Ideal S8x256x300 .bf16) (w : Vec Ideal S1x300x512 .bf16) (acc : FVec Ideal S8x256x512 .f32)
    (b : Fin 8) (l : Fin 256) (f : Fin 512) :
    k1_pay10 (F := Ideal) (k1_pay9 z) w acc (ix3 b l f)
      = acc (ix3 b l f) + ∑ e : Fin 300, z (ix3 b l e) * w (ix3 (0 : Fin 1) e f) := update_apply z w acc b l f
theorem update4_apply (z : Vec Ideal S8x256x300 .bf16) (w : Vec Ideal S1x300x512 .bf16) (acc : FVec Ideal S8x256x512 .f32)
    (b : Fin 8) (l : Fin 256) (f : Fin 512) :
    k1_pay11 (F := Ideal) z w acc (ix3 b l f)
      = acc (ix3 b l f) + ∑ e : Fin 300, z (ix3 b l e) * w (ix3 (0 : Fin 1) e f) := update_apply z w acc b l f

/-- The input block's own rows are the padded rows `2 … 257`: the third update reads them straight from the store. -/
theorem middle_apply (x0 : Vec Ideal S8x256x300 .f32) (b : Fin 8) (l : Fin 256) (e : Fin 300) :
    k1_pay3 (F := Ideal) x0 (ix3 b l e) = padded x0 b (l.val + 2) e := by
  have hl := l.isLt
  rw [padded_of_mem x0 b (l.val + 2) e (by omega)]
  refine (congrFun (shapeCast_self _ _) _).trans ?_
  exact congrArg x0 (funext fun a => Fin.ext (by
    match a with
    | ⟨0, _⟩ => rfl
    | ⟨1, _⟩ => show l.val = l.val + 2 - 2; omega
    | ⟨2, _⟩ => rfl))

/-- THE STEP'S VALUE: read at token `l` of the tile's sequence `b` and feature `f`, the block written back is the
    slab-by-slab accumulation over the zero-padded input block, plus the bias. -/
theorem out_apply (c : Dev nD) (i : grid1.Coords) (a1 : Memref sig .tc .vmem S8x256x300 .f32) (h1 : a1.IsWhole)
    (a2 : Memref sig .tc .vmem S5x300x512 .bf16) (h2 : a2.IsWhole) (a3 : Memref sig .tc .vmem S1x512 .f32) (h3 : a3.IsWhole)
    (a4 : Memref sig .tc .vmem S8x512x256 .f32) (h4 : a4.IsWhole) (a5 : Memref sig .tc .vmem S8x260x300 .bf16) (h5 : a5.IsWhole)
    (a6 : Memref sig .tc .vmem S8x256x512 .f32) (h6 : a6.IsWhole)
    (x0 : Vec Ideal S8x256x300 .f32) (x1 : Vec Ideal S5x300x512 .bf16) (x2 : Vec Ideal S1x512 .f32)
    (b : Fin 8) (l : Fin 256) (f : Fin 512) :
    out1_A_3 (F := Ideal) c i a1 h1 a2 h2 a3 h3 a4 h4 a5 h5 a6 h6 x0 x1 x2 (ix3 b f l) = stepValue x0 x1 x2 b l f := by
  have hl := l.isLt
  rw [out_eq]
  refine (bias_apply _ x2 b l f).trans ?_
  unfold stepValue
  refine congrArg (· + x2 (ix2 (0 : Fin 1) f)) ?_
  have r0 : ∀ e, rowsAt (F := Ideal) x0 (Rect.unit (s := S8x260x300) ![0, 0, 0] S8x256x300.size inb_S8x260x300_S8x256x300_0_0_0) (ix3 b l e) = padded x0 b (l.val + 0) e :=
    fun e => rowsAt_apply x0 0 (by omega) _ b l e
  have r1 : ∀ e, rowsAt (F := Ideal) x0 (Rect.unit (s := S8x260x300) ![0, 1, 0] S8x256x300.size inb_S8x260x300_S8x256x300_0_1_0) (ix3 b l e) = padded x0 b (l.val + 1) e :=
    fun e => rowsAt_apply x0 1 (by omega) _ b l e
  have r3 : ∀ e, rowsAt (F := Ideal) x0 (Rect.unit (s := S8x260x300) ![0, 3, 0] S8x256x300.size inb_S8x260x300_S8x256x300_0_3_0) (ix3 b l e) = padded x0 b (l.val + 3) e :=
    fun e => rowsAt_apply x0 3 (by omega) _ b l e
  have r4 : ∀ e, rowsAt (F := Ideal) x0 (Rect.unit (s := S8x260x300) ![0, 4, 0] S8x256x300.size inb_S8x260x300_S8x256x300_0_4_0) (ix3 b l e) = padded x0 b (l.val + 4) e :=
    fun e => rowsAt_apply x0 4 (by omega) _ b l e
  have w0 : ∀ e, View.ld x1 (Rect.unit (s := S5x300x512) ![0, 0, 0] S1x300x512.size inb_S5x300x512_S1x300x512_0_0_0) (ix3 (0 : Fin 1) e f) = x1 (ix3 (0 : Fin 5) e f) := fun e => slab_apply x1 0 _ e f
  have w1 : ∀ e, View.ld x1 (Rect.unit (s := S5x300x512) ![1, 0, 0] S1x300x512.size inb_S5x300x512_S1x300x512_1_0_0) (ix3 (0 : Fin 1) e f) = x1 (ix3 (1 : Fin 5) e f) := fun e => slab_apply x1 1 _ e f
  have w2 : ∀ e, View.ld x1 (Rect.unit (s := S5x300x512) ![2, 0, 0] S1x300x512.size inb_S5x300x512_S1x300x512_2_0_0) (ix3 (0 : Fin 1) e f) = x1 (ix3 (2 : Fin 5) e f) := fun e => slab_apply x1 2 _ e f
  have w3 : ∀ e, View.ld x1 (Rect.unit (s := S5x300x512) ![3, 0, 0] S1x300x512.size inb_S5x300x512_S1x300x512_3_0_0) (ix3 (0 : Fin 1) e f) = x1 (ix3 (3 : Fin 5) e f) := fun e => slab_apply x1 3 _ e f
  have w4 : ∀ e, View.ld x1 (Rect.unit (s := S5x300x512) ![4, 0, 0] S1x300x512.size inb_S5x300x512_S1x300x512_4_0_0) (ix3 (0 : Fin 1) e f) = x1 (ix3 (4 : Fin 5) e f) := fun e => slab_apply x1 4 _ e f
  rw [update4_apply, update3_apply, update2_apply, update_apply, update0_apply, cleared_apply]
  simp only [r0, r1, r3, r4, middle_apply, w0, w1, w2, w3, w4]

end Cert.KernelIdeal.StepA

end
-- ==== Proof.TilesA.lean ====
/-
  From one grid step to the whole array: the answer branch's launch.

  The launch runs 32 grid steps; step t works on sequences 8·t … 8·t + 7 and writes back that batch tile of the
  result array, whole in the other two axes; the weights and the bias row are the same whole arrays at every step.
  Each step's block is the slab-by-slab accumulation over its own tile, padding looks at one sequence only, and the 32
  tiles cover the batch axis: so after the launch the result array holds that accumulation of the whole input array,
  features before tokens.
-/
import proofs.«123280_j53687091200212_2_alg».proof.Proof.StepA
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.TilesA

open Cert.KernelIdeal Cert.KernelIdeal.Gen Cert.ContextConv

-- the buffer contents the launch is entered with
variable (V : (c : Dev nD) → (b : Ref sig .tc) → Buf (Elt Ideal) ((c : Thread nD τ).loc b))

/-- What the launch leaves in its result array, as one function of the three arrays it reads. -/
def whole (X : S256x256x300.Idx → EReal) (w : S5x300x512.Idx → EReal) (brow : S1x512.Idx → EReal) : S256x512x256.Idx → EReal :=
  fun i => stepValue X w brow (i 0) (i 2) (i 1)

/-- The printed index maps over the grid: the input and the output move one batch tile per step, the weights and the
    bias stay. -/
theorem idx_facts : ∀ t : Fin cfg1.N,
    win1_0.index t (0 : Fin 3) = t.val ∧ win1_0.index t (1 : Fin 3) = 0 ∧ win1_0.index t (2 : Fin 3) = 0
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = 0
    ∧ win1_3.index t (0 : Fin 3) = t.val ∧ win1_3.index t (1 : Fin 3) = 0 ∧ win1_3.index t (2 : Fin 3) = 0 :=
  (by decide +kernel : ∀ t : Fin grid1.N, _)

/-- Step `t`'s input block is sequences `8·t …` of the input array. -/
theorem x_block (c : Dev nD) (t : Fin cfg1.N) (b : Fin 8) (l : Fin 256) (e : Fin 300) :
    (iblk1 V c 0 t : S8x256x300.Idx → EReal) (ix3 b l e)
      = (V c main_arg1 : S256x256x300.Idx → EReal) (ix3 ⟨8 * t.val + b.val, by
          have hN : cfg1.N = 32 := N_1
          have := t.isLt; have := b.isLt; omega⟩ l e) := by
  obtain ⟨e0, e1, e2, -⟩ := idx_facts t
  unfold iblk1
  rw [View.read_apply]
  show V c main_arg1 (((cfg1.win 0).blk t).view.emb (ix3 b l e)) = _
  refine congrArg (V c main_arg1) (funext fun a => Fin.ext ?_)
  match a with
  | ⟨0, _⟩ => show win1_0.index t (0 : Fin 3) * 8 + 1 * b.val = 8 * t.val + b.val; rw [e0]; omega
  | ⟨1, _⟩ => show win1_0.index t (1 : Fin 3) * 256 + 1 * l.val = l.val; rw [e1]; omega
  | ⟨2, _⟩ => show win1_0.index t (2 : Fin 3) * 300 + 1 * e.val = e.val; rw [e2]; omega

/-- Every step's weight block is the whole weight array. -/
theorem w_block (c : Dev nD) (t : Fin cfg1.N) : (iblk1 V c 1 t : S5x300x512.Idx → EReal) = V c main_v1 := by
  obtain ⟨-, -, -, e3, e4, e5, -⟩ := idx_facts t
  funext y
  unfold iblk1
  rw [View.read_apply]
  show V c main_v1 (((cfg1.win 1).blk t).view.emb y) = V c main_v1 y
  refine congrArg (V c main_v1) (funext fun a => Fin.ext ?_)
  match a with
  | ⟨0, _⟩ => show win1_1.index t (0 : Fin 3) * 5 + 1 * (y 0).val = (y 0).val; rw [e3]; omega
  | ⟨1, _⟩ => show win1_1.index t (1 : Fin 3) * 300 + 1 * (y 1).val = (y 1).val; rw [e4]; omega
  | ⟨2, _⟩ => show win1_1.index t (2 : Fin 3) * 512 + 1 * (y 2).val = (y 2).val; rw [e5]; omega

/-- Every step's bias block is the whole bias row. -/
theorem b_block (c : Dev nD) (t : Fin cfg1.N) : (iblk1 V c 2 t : S1x512.Idx → EReal) = V c main_v2 := by
  obtain ⟨-, -, -, -, -, -, e6, e7, -⟩ := idx_facts t
  funext y
  unfold iblk1
  rw [View.read_apply]
  show V c main_v2 (((cfg1.win 2).blk t).view.emb y) = V c main_v2 y
  refine congrArg (V c main_v2) (funext fun a => Fin.ext ?_)
  match a with
  | ⟨0, _⟩ => show win1_2.index t (0 : Fin 2) * 1 + 1 * (y 0).val = (y 0).val; rw [e6]; omega
  | ⟨1, _⟩ => show win1_2.index t (1 : Fin 2) * 512 + 1 * (y 1).val = (y 1).val; rw [e7]; omega

/-- WHAT STEP `t` WRITES BACK is tile `t` of `whole` of the arrays as the launch finds them. -/
theorem flushed_eq (c : Dev nD) (t : Fin cfg1.N) :
    (dat1 V c).flushed 3 t
      = ((cfg1.win 3).blk t).view.read (Elt Ideal) (whole (V c main_arg1) (V c main_v1) (V c main_v2)) := by
  have hN : cfg1.N = 32 := N_1
  have ht := t.isLt
  obtain ⟨-, -, -, -, -, -, -, -, e8, e9, e10⟩ := idx_facts t
  show (cfg1.win 3).cut (grid1.coords t) ((dat1 V c).after 3 t) = _
  rw [after1_3]
  unfold outsAt1
  funext j
  obtain ⟨b, f, l, rfl⟩ : ∃ (b : Fin 8) (f : Fin 512) (l : Fin 256), j = ix3 b f l := ⟨j 0, j 1, j 2, eq_ix3 j⟩
  have hb := b.isLt
  rw [View.read_apply]
  refine (StepA.out_apply c (grid1.coords t) (ms1_0 t) (hs1_0 t) (ms1_1 t) (hs1_1 t) (ms1_2 t) (hs1_2 t) (ms1_3 t)
    (hs1_3 t) scM1_0 (Memref.isWhole_whole _) scM1_1 (Memref.isWhole_whole _) (iblk1 V c 0 t) (iblk1 V c 1 t) (iblk1 V c 2 t)
    b l f).trans ?_
  have ey : ((cfg1.win 3).blk t).view.emb (ix3 b f l)
      = (ix3 (⟨8 * t.val + b.val, by omega⟩ : Fin 256) f l : S256x512x256.Idx) :=
    funext fun a => Fin.ext (by
      match a with
      | ⟨0, _⟩ => show win1_3.index t (0 : Fin 3) * 8 + 1 * b.val = 8 * t.val + b.val; rw [e8]; omega
      | ⟨1, _⟩ => show win1_3.index t (1 : Fin 3) * 512 + 1 * f.val = f.val; rw [e9]; omega
      | ⟨2, _⟩ => show win1_3.index t (2 : Fin 3) * 256 + 1 * l.val = l.val; rw [e10]; omega)
  rw [ey, w_block V c t, b_block V c t]
  show stepValue _ _ _ b l f = stepValue _ _ _ (⟨8 * t.val + b.val, _⟩ : Fin 256) l f
  exact stepValue_congr_row _ _ _ _ b _ (fun l e => x_block V c t b l e) l f

/-- An index of the result array is in step `t`'s tile iff each coordinate is in the tile's range on its axis. -/
theorem mem_blk (t : Fin cfg1.N) (i : S256x512x256.Idx) :
    i ∈ ((cfg1.win 3).blk t).view.set
      ↔ ∀ a : Fin 3, win1_3.index t a * S8x512x256.size a ≤ (i a).val ∧ (i a).val < win1_3.index t a * S8x512x256.size a + S8x512x256.size a := by
  show i ∈ ((View.whole main_v5).slice (win1_3.rect t)).set ↔ _
  rw [View.set_slice_whole, Rect.mem_set_unit]
  exact Iff.rfl

/-- THE RESULT ARRAY after the launch: the tiles cover it (sequence `s` is in tile `s / 8`), so it holds `whole`. -/
theorem final (c : Dev nD) :
    (dat1 V c).arrAt 3 cfg1.N = whole (V c main_arg1) (V c main_v1) (V c main_v2) :=
  (dat1 V c).arrAt_eq_of_cover 3 (whole (V c main_arg1) (V c main_v1) (V c main_v2)) (fun t _ => flushed_eq V c t) fun i => by
    have hN : cfg1.N = 32 := N_1
    have hi0 : (i 0).val < 256 := (i 0).isLt
    have hi1 : (i 1).val < 512 := (i 1).isLt
    have hi2 : (i 2).val < 256 := (i 2).isLt
    obtain ⟨-, -, -, -, -, -, -, -, e8, e9, e10⟩ := idx_facts (⟨(i 0).val / 8, by rw [hN]; omega⟩ : Fin cfg1.N)
    refine ⟨⟨(i 0).val / 8, by rw [hN]; omega⟩, flush1_3 _, ?_⟩
    rw [mem_blk]
    intro a
    match a with
    | ⟨0, _⟩ =>
      show win1_3.index _ (0 : Fin 3) * 8 ≤ (i 0).val ∧ (i 0).val < win1_3.index _ (0 : Fin 3) * 8 + 8
      rw [e8]
      show (i 0).val / 8 * 8 ≤ (i 0).val ∧ (i 0).val < (i 0).val / 8 * 8 + 8
      omega
    | ⟨1, _⟩ =>
      show win1_3.index _ (1 : Fin 3) * 512 ≤ (i 1).val ∧ (i 1).val < win1_3.index _ (1 : Fin 3) * 512 + 512
      rw [e9]
      omega
    | ⟨2, _⟩ =>
      show win1_3.index _ (2 : Fin 3) * 256 ≤ (i 2).val ∧ (i 2).val < win1_3.index _ (2 : Fin 3) * 256 + 256
      rw [e10]
      omega

end Cert.KernelIdeal.TilesA

end
-- ==== Proof.Whole.lean ====
/-
  The idealized kernel program's two results as functions of its four arguments.

  The question branch's launch leaves, in its result array, the slab-by-slab accumulation over the question array with
  the host's five weight slabs and bias row (tokens before features); the host then swaps the last two axes. The answer
  branch's launch leaves the same accumulation over the answer array, features before tokens. The five slabs are rows
  300·i … 300·i + 299 of the weight matrix and the bias row is the bias vector, so by the accumulation law both results
  are the context-window layer of their input.
-/
import proofs.«123280_j53687091200212_2_alg».proof.Proof.Launched
import proofs.«123280_j53687091200212_2_alg».proof.Proof.HostGlue
import proofs.«123280_j53687091200212_2_alg».proof.Proof.TilesQ
import proofs.«123280_j53687091200212_2_alg».proof.Proof.TilesA

set_option maxRecDepth 16384

noncomputable section

open Idealize.ShloMosaic Idealize.ShloMosaic.TcCoe Idealize.SL.Sem Idealize.ShloMosaic.ValueIdx

namespace Cert.KernelIdeal.Whole

open Cert.KernelIdeal Cert.KernelIdeal.Gen Cert.ContextConv

variable (m : (ℓ : Loc nD τ sig) → Buf (Elt Ideal) ℓ) (ρ : Dev nD → PrngReg)

/-- The accumulation with the host's slabs and bias row is the layer with the weight matrix and the bias vector. -/
theorem step_is_layer {B L : ℕ} (c : Dev nD) (x : (⟨3, ![B, L, 300]⟩ : Shape).Idx → EReal) (b : Fin B) (l : Fin L) (f : Fin 512) :
    stepValue x (V1 m ρ c main_v1) (V1 m ρ c main_v2) b l f
      = conv x (m ((c.tc : Thread nD τ).loc main_arg2)) (m ((c.tc : Thread nD τ).loc main_arg3)) b l f :=
  (stepValue_eq_accumulated x (m ((c.tc : Thread nD τ).loc main_arg2)) (m ((c.tc : Thread nD τ).loc main_arg3)) _ _
    (HostGlue.entry0_w m ρ c) (HostGlue.entry0_b m ρ c) b l f).trans (accumulated_eq_conv _ _ _ b l f)

/-- The question branch's result, after the host's transpose, is the layer of the question array. -/
theorem question (c : Dev nD) :
    W4 m ρ c (Proc.devRef .tc main_v4)
      = result (B := 256) (L := 64) (m ((c.tc : Thread nD τ).loc main_arg0)) (m ((c.tc : Thread nD τ).loc main_arg2))
          (m ((c.tc : Thread nD τ).loc main_arg3)) := by
  funext i
  obtain ⟨b, f, l, rfl⟩ : ∃ (b : Fin 256) (f : Fin 512) (l : Fin 64), i = ix3 b f l := ⟨i 0, i 1, i 2, eq_ix3 i⟩
  refine (HostGlue.exit_q m ρ c b f l).trans ?_
  rw [TilesQ.final (V1 m ρ) c, HostGlue.entry0_x m ρ c]
  exact step_is_layer m ρ c _ b l f

/-- The answer branch's result is the layer of the answer array. -/
theorem answer (c : Dev nD) :
    W4 m ρ c (Proc.devRef .tc main_v5)
      = result (B := 256) (L := 256) (m ((c.tc : Thread nD τ).loc main_arg1)) (m ((c.tc : Thread nD τ).loc main_arg2))
          (m ((c.tc : Thread nD τ).loc main_arg3)) := by
  rw [HostGlue.exit_a m ρ c, TilesA.final (V3 m ρ) c, HostGlue.entry1_x m ρ c, HostGlue.entry1_w m ρ c,
    HostGlue.entry1_b m ρ c]
  funext i
  obtain ⟨b, f, l, rfl⟩ : ∃ (b : Fin 256) (f : Fin 512) (l : Fin 256), i = ix3 b f l := ⟨i 0, i 1, i 2, eq_ix3 i⟩
  exact step_is_layer m ρ c _ b l f

/-- The run: every weakly fair execution ends with both results at the layer of their inputs, the arguments unchanged. -/
theorem run : θ_run defs (onTc (τ := τ) (main (F := Ideal))) ⟨m, fun _ => 0, ρ⟩ (fun r => ∀ c : Dev nD,
      r.2.mem ((c.tc : Thread nD τ).loc main_v4)
        = result (B := 256) (L := 64) (m ((c.tc : Thread nD τ).loc main_arg0)) (m ((c.tc : Thread nD τ).loc main_arg2))
            (m ((c.tc : Thread nD τ).loc main_arg3))
      ∧ r.2.mem ((c.tc : Thread nD τ).loc main_v5)
        = result (B := 256) (L := 256) (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun r h c => ⟨(h c).1.trans (question m ρ c), (h c).2.1.trans (answer m ρ c), (h c).2.2⟩)
    (Cert.KernelIdeal.Launched.run m ρ)

end Cert.KernelIdeal.Whole

end
-- ==== Proof.lean ====
/-
  A context-window convolution layer against its reference, at the ideal values.

  Both programs compute, for a batch of question sequences (64 tokens) and a batch of answer sequences (256 tokens) of
  300-feature tokens, with one weight matrix W[1500, 512] and one bias vector,

      out[b, f, l] = Σ_{k < 1500} W[k, f] · pad(x)[b, l + k / 300, k % 300]  +  bias[f]

  where pad adds two zero rows before and after each sequence. The reference pads, lays the five shifted copies end to
  end and contracts the 1500 positions at once. The kernel program regroups W into five 300-row slabs and, tile by tile
  over the batch, adds the five slabs' partial products into an accumulator that starts at zero. Over the extended reals
  the two agree by associativity and commutativity of addition and commutativity of the product alone (the slab-by-slab
  law), so the equality needs no finiteness of the inputs. Changes of float format are the identity at the ideal values.
  The ideal pass rewrote nothing, so the kernel's idealization is the program's own text.
-/
import proofs.«123280_j53687091200212_2_alg».proof.Defs
import proofs.«123280_j53687091200212_2_alg».proof.Proof.Gen.Kernel
import proofs.«123280_j53687091200212_2_alg».proof.Proof.Gen.Kernel.Frame
import proofs.«123280_j53687091200212_2_alg».proof.Proof.Gen.KernelIdeal
import proofs.«123280_j53687091200212_2_alg».proof.Proof.Gen.KernelIdeal.Frame
import proofs.«123280_j53687091200212_2_alg».proof.Proof.Gen.ReferenceIdeal
import proofs.«123280_j53687091200212_2_alg».proof.Proof.Gen.ReferenceIdeal.Run
import proofs.«123280_j53687091200212_2_alg».proof.Proof.Gen.ReferenceIdeal.Read
import proofs.«123280_j53687091200212_2_alg».proof.Proof.Gen.Pre_finite_inputs
import proofs.«123280_j53687091200212_2_alg».proof.Proof.RefValue
import proofs.«123280_j53687091200212_2_alg».proof.Proof.Whole
import Idealize.ShloMosaic.Adequacy
import Idealize.ShloMosaic.Init

noncomputable section

namespace Cert.Proof

open Idealize.ShloMosaic Idealize.SL.Sem Cert.ContextConv

/-- The word-level kernel program runs, faults nowhere, and leaves its arguments as launched. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference is a straight line of host operations: its run, with the results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the layer of the question array and the layer of the answer array. -/
theorem algebraic : Cert.algebraic_KernelIdeal_ReferenceIdeal := by
  intro m ρ m' ρ' _ hagree
  refine ⟨fun c => result (B := 256) (L := 64) (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => result (B := 256) (L := 256) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v11_eq, Cert.ReferenceIdeal.RefValue.question_eq,
      (hagree c).1, (hagree c).2.2.1, (hagree c).2.2.2]
  · rw [(h c).2.1, Cert.ReferenceIdeal.Read.val_main_v23_eq, Cert.ReferenceIdeal.RefValue.answer_eq,
      (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
